-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x256 : Shape := ⟨3, ![256, 512, 256]⟩
abbrev S_ : Shape := ⟨0, ![]⟩

class Facts : Prop where
  bcast_S_S256x512x256 : S_.BroadcastsInDim S256x512x256 (![] : Fin 0 → Fin S256x512x256.rank)
  reducesTo_S256x512x256_S_d0_1_2 : S256x512x256.ReducesTo [0, 1, 2] S_
  h_S_ : 0 < S_.numel

variable [Facts]

def fn {F : FTy → Type} [FloatOps F] (main_arg0 : FVec F S256x512x256 .f32) : IVec S_ 1 :=
  let main_v0 : FVec F S256x512x256 .f32 := Host.absf main_arg0
  let main_cst : FVec F S_ .f32 := constant S_ .f32 0x7F800000#32
  let main_v1 : FVec F S256x512x256 .f32 := broadcastInDim S256x512x256 ![] bcast_S_S256x512x256 main_cst
  let main_v2 : IVec S256x512x256 1 := cmpf .olt main_v0 main_v1
  let main_c : IVec S_ 1 := constantI S_ 1 1#1
  let main_v3 : IVec S_ 1 := (fun x v => Host.reduce IntOp.andi x v reducesTo_S256x512x256_S_d0_1_2 h_S_) main_v2 main_c
  main_v3
-- ==== Kernel.lean ====
abbrev S256x512x256 : Shape := ⟨3, ![256, 512, 256]⟩
abbrev S4x512x256 : Shape := ⟨3, ![4, 512, 256]⟩
abbrev S4x256 : Shape := ⟨2, ![4, 256]⟩
abbrev S4x1x256 : Shape := ⟨3, ![4, 1, 256]⟩
abbrev S4x256x256 : Shape := ⟨3, ![4, 256, 256]⟩
abbrev S4x1 : Shape := ⟨2, ![4, 1]⟩
abbrev S4x1x1 : Shape := ⟨3, ![4, 1, 1]⟩
abbrev S256x256 : Shape := ⟨2, ![256, 256]⟩
abbrev S1x256x256 : Shape := ⟨3, ![1, 256, 256]⟩

abbrev nBuf : Space → Nat
  | .hbm => 2
  | .vmem => 4
  | .smem => 0
  | _ => 0

abbrev bufTy : (tb : Table) → Fin (tcTables nBuf tb) → BufTy
  | .hbm, ⟨0, _⟩ => ⟨S256x512x256, .f32⟩
  | .hbm, ⟨1, _⟩ => ⟨S256x512x256, .f32⟩
  | .local _ .vmem, ⟨0, _⟩ => ⟨S4x512x256, .f32⟩
  | .local _ .vmem, ⟨1, _⟩ => ⟨S4x512x256, .f32⟩
  | .local _ .vmem, ⟨2, _⟩ => ⟨S4x512x256, .f32⟩
  | .local _ .vmem, ⟨3, _⟩ => ⟨S4x512x256, .f32⟩
  | _, _ => ⟨S256x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4x512x256_S4x512x256_0_0_0 : ∀ a, (![0, 0, 0] : Fin 3 → Nat) a + S4x512x256.size a ≤ S4x512x256.size a
  h_S4x512x256 : 0 < S4x512x256.numel
  reduces_S4x512x256_S4x256 : S4x512x256.Reduces [1] S4x256
  shapeCasts_S4x256_S4x1x256 : S4x256.ShapeCasts S4x1x256
  broadcasts_S4x1x256_S4x512x256 : S4x1x256.Broadcasts S4x512x256
  bitsLt_bf16_f32 : FTy.bits .bf16 < FTy.bits .f32
  reduces_S4x1x256_S4x1 : S4x1x256.Reduces [2] S4x1
  shapeCasts_S4x1_S4x1x1 : S4x1.ShapeCasts S4x1x1
  iota_S256x256_d0_w32 : S256x256.Iotas .tc 32 [0]
  iota_S256x256_d1_w32 : S256x256.Iotas .tc 32 [1]
  natLt_1_32 : 1 < 32
  broadcasts_S4x1x1_S4x256x256 : S4x1x1.Broadcasts S4x256x256
  shapeCasts_S256x256_S1x256x256 : S256x256.ShapeCasts S1x256x256
  broadcasts_S1x256x256_S4x256x256 : S1x256x256.Broadcasts S4x256x256
  dot_S4x512x256_S4x512x256_S4x256x256_1_1_2_2_0_0_wf : DotDims.WF S4x512x256 S4x512x256 S4x256x256 [1] [1] [2] [2] [0] [0]
  dot_S4x256x256_S4x256x256_S4x256x256_2_1_1_2_0_0_wf : DotDims.WF S4x256x256 S4x256x256 S4x256x256 [2] [1] [1] [2] [0] [0]
  dot_S4x512x256_S4x256x256_S4x512x256_2_1_1_2_0_0_wf : DotDims.WF S4x512x256 S4x256x256 S4x512x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x256.size a ≤ S256x512x256.size a
  hwx0_0 : ∀ i : grid0.Coords, EltTy.bits .f32 = 32 ∨ (Rect.block (s := S256x512x256) S4x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x256.size a ≤ S256x512x256.size a
  hwx0_1 : ∀ i : grid0.Coords, EltTy.bits .f32 = 32 ∨ (Rect.block (s := S256x512x256) S4x512x256.size (cc0_transform_1 i) (hinb0_1 i)).WholeWords (EltTy.packing .f32)

variable [Facts₀]

def dot_S4x512x256_S4x512x256_S4x256x256_1_1_2_2_0_0 : DotDims S4x512x256 S4x512x256 S4x256x256 where
  lhsContracting := [1]
  rhsContracting := [1]
  lhsNonContracting := [2]
  rhsNonContracting := [2]
  lhsBatch := [0]
  rhsBatch := [0]
  wf := dot_S4x512x256_S4x512x256_S4x256x256_1_1_2_2_0_0_wf
def dot_S4x256x256_S4x256x256_S4x256x256_2_1_1_2_0_0 : DotDims S4x256x256 S4x256x256 S4x256x256 where
  lhsContracting := [2]
  rhsContracting := [1]
  lhsNonContracting := [1]
  rhsNonContracting := [2]
  lhsBatch := [0]
  rhsBatch := [0]
  wf := dot_S4x256x256_S4x256x256_S4x256x256_2_1_1_2_0_0_wf
def dot_S4x512x256_S4x256x256_S4x512x256_2_1_1_2_0_0 : DotDims S4x512x256 S4x256x256 S4x512x256 where
  lhsContracting := [2]
  rhsContracting := [1]
  lhsNonContracting := [1]
  rhsNonContracting := [2]
  lhsBatch := [0]
  rhsBatch := [0]
  wf := dot_S4x512x256_S4x256x256_S4x512x256_2_1_1_2_0_0_wf

abbrev win0_0 : Pipeline.Window sig grid0 :=
  Pipeline.Window.ofSpec (Memref.whole main_arg0) S4x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x512x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x512x256 : Shape := ⟨3, ![256, 512, 256]⟩
abbrev S_ : Shape := ⟨0, ![]⟩
abbrev S256x256 : Shape := ⟨2, ![256, 256]⟩
abbrev S256x1x256 : Shape := ⟨3, ![256, 1, 256]⟩
abbrev S256x256x256 : Shape := ⟨3, ![256, 256, 256]⟩
abbrev S256 : Shape := ⟨1, ![256]⟩
abbrev S256x1x1 : Shape := ⟨3, ![256, 1, 1]⟩

abbrev nBuf : Space → Nat
  | .hbm => 80
  | .vmem => 0
  | .smem => 0
  | _ => 0

abbrev bufTy : (tb : Table) → Fin (tcTables nBuf tb) → BufTy
  | .hbm, ⟨0, _⟩ => ⟨S256x512x256, .f32⟩
  | .hbm, ⟨1, _⟩ => ⟨S_, .f32⟩
  | .hbm, ⟨2, _⟩ => ⟨S256x256, .f32⟩
  | .hbm, ⟨3, _⟩ => ⟨S256x1x256, .f32⟩
  | .hbm, ⟨4, _⟩ => ⟨S_, .f32⟩
  | .hbm, ⟨5, _⟩ => ⟨S256x1x256, .f32⟩
  | .hbm, ⟨6, _⟩ => ⟨S256x1x256, .f32⟩
  | .hbm, ⟨7, _⟩ => ⟨S256x512x256, .f32⟩
  | .hbm, ⟨8, _⟩ => ⟨S256x512x256, .f32⟩
  | .hbm, ⟨9, _⟩ => ⟨S256x256x256, .f32⟩
  | .hbm, ⟨10, _⟩ => ⟨S_, .f32⟩
  | .hbm, ⟨11, _⟩ => ⟨S256x256x256, .f32⟩
  | .hbm, ⟨12, _⟩ => ⟨S256x256x256, .f32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i32⟩
  | .hbm, ⟨18, _⟩ => ⟨S256x256, .i1⟩
  | .hbm, ⟨19, _⟩ => ⟨S_, .f32⟩
  | .hbm, ⟨20, _⟩ => ⟨S256x256x256, .f32⟩
  | .hbm, ⟨21, _⟩ => ⟨S256x256x256, .i1⟩
  | .hbm, ⟨22, _⟩ => ⟨S256x256x256, .f32⟩
  | .hbm, ⟨23, _⟩ => ⟨S_, .f32⟩
  | .hbm, ⟨24, _⟩ => ⟨S256, .f32⟩
  | .hbm, ⟨25, _⟩ => ⟨S256x1x1, .f32⟩
  | .hbm, ⟨26, _⟩ => ⟨S256x256x256, .f32⟩
  | .hbm, ⟨27, _⟩ => ⟨S256x256x256, .f32⟩
  | .hbm, ⟨28, _⟩ => ⟨S256x256, .i32⟩
  | .hbm, ⟨29, _⟩ => ⟨S256x256, .i32⟩
  | .hbm, ⟨30, _⟩ => ⟨S_, .i32⟩
  | .hbm, ⟨31, _⟩ => ⟨S256x256, .i32⟩
  | .hbm, ⟨32, _⟩ => ⟨S256x256, .i32⟩
  | .hbm, ⟨33, _⟩ => ⟨S256x256, .i1⟩
  | .hbm, ⟨34, _⟩ => ⟨S256x256, .f32⟩
  | .hbm, ⟨35, _⟩ => ⟨S256x256x256, .f32⟩
  | .hbm, ⟨36, _⟩ => ⟨S256x256x256, .f32⟩
  | .hbm, ⟨37, _⟩ => ⟨S256x256x256, .f32⟩
  | .hbm, ⟨38, _⟩ => ⟨S_, .f32⟩
  | .hbm, ⟨39, _⟩ => ⟨S256x256x256, .f32⟩
  | .hbm, ⟨40, _⟩ => ⟨S256x256x256, .f32⟩
  | .hbm, ⟨41, _⟩ => ⟨S256x256x256, .f32⟩
  | .hbm, ⟨42, _⟩ => ⟨S_, .f32⟩
  | .hbm, ⟨43, _⟩ => ⟨S256x256x256, .f32⟩
  | .hbm, ⟨44, _⟩ => ⟨S256x256x256, .f32⟩
  | .hbm, ⟨45, _⟩ => ⟨S256x256x256, .f32⟩
  | .hbm, ⟨46, _⟩ => ⟨S256x256x256, .f32⟩
  | .hbm, ⟨47, _⟩ => ⟨S256x256x256, .f32⟩
  | .hbm, ⟨48, _⟩ => ⟨S_, .f32⟩
  | .hbm, ⟨49, _⟩ => ⟨S256x256x256, .f32⟩
  | .hbm, ⟨50, _⟩ => ⟨S256x256x256, .f32⟩
  | .hbm, ⟨51, _⟩ => ⟨S256x256x256, .f32⟩
  | .hbm, ⟨52, _⟩ => ⟨S_, .f32⟩
  | .hbm, ⟨53, _⟩ => ⟨S256x256x256, .f32⟩
  | .hbm, ⟨54, _⟩ => ⟨S256x256x256, .f32⟩
  | .hbm, ⟨55, _⟩ => ⟨S256x256x256, .f32⟩
  | .hbm, ⟨56, _⟩ => ⟨S256x256x256, .f32⟩
  | .hbm, ⟨57, _⟩ => ⟨S256x256x256, .f32⟩
  | .hbm, ⟨58, _⟩ => ⟨S_, .f32⟩
  | .hbm, ⟨59, _⟩ => ⟨S256x256x256, .f32⟩
  | .hbm, ⟨60, _⟩ => ⟨S256x256x256, .f32⟩
  | .hbm, ⟨61, _⟩ => ⟨S256x256x256, .f32⟩
  | .hbm, ⟨62, _⟩ => ⟨S_, .f32⟩
  | .hbm, ⟨63, _⟩ => ⟨S256x256x256, .f32⟩
  | .hbm, ⟨64, _⟩ => ⟨S256x256x256, .f32⟩
  | .hbm, ⟨65, _⟩ => ⟨S256x256x256, .f32⟩
  | .hbm, ⟨66, _⟩ => ⟨S256x256x256, .f32⟩
  | .hbm, ⟨67, _⟩ => ⟨S256x256x256, .f32⟩
  | .hbm, ⟨68, _⟩ => ⟨S_, .f32⟩
  | .hbm, ⟨69, _⟩ => ⟨S256x256x256, .f32⟩
  | .hbm, ⟨70, _⟩ => ⟨S256x256x256, .f32⟩
  | .hbm, ⟨71, _⟩ => ⟨S256x256x256, .f32⟩
  | .hbm, ⟨72, _⟩ => ⟨S_, .f32⟩
  | .hbm, ⟨73, _⟩ => ⟨S256x256x256, .f32⟩
  | .hbm, ⟨74, _⟩ => ⟨S256x256x256, .f32⟩
  | .hbm, ⟨75, _⟩ => ⟨S256x256x256, .f32⟩
  | .hbm, ⟨76, _⟩ => ⟨S256x1x1, .f32⟩
  | .hbm, ⟨77, _⟩ => ⟨S256x256x256, .f32⟩
  | .hbm, ⟨78, _⟩ => ⟨S256x256x256, .f32⟩
  | .hbm, ⟨79, _⟩ => ⟨S256x512x256, .f32⟩
  | _, _ => ⟨S256x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_c : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_cst : Ref sig .tc := ⟨.hbm, 19, rfl⟩
abbrev main_call0_v5 : Ref sig .tc := ⟨.hbm, 20, rfl⟩
abbrev main_call0_call0_v0 : Ref sig .tc := ⟨.hbm, 21, rfl⟩
abbrev main_call0_v6 : Ref sig .tc := ⟨.hbm, 22, rfl⟩
abbrev main_call0_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩

abbrev nD : Nat := 1
abbrev τ : Topo := Topo.v7x

variable {F : FTy → Type} [FloatOps F]

class Facts₀ : Prop where
  reducesTo_S256x512x256_S256x256_d1 : S256x512x256.ReducesTo [1] S256x256
  h_S_ : 0 < S_.numel
  bcast_S256x256_S256x1x256_0_2 : S256x256.BroadcastsInDim S256x1x256 (![0, 2] : Fin 2 → Fin S256x1x256.rank)
  bcast_S_S256x1x256 : S_.BroadcastsInDim S256x1x256 (![] : Fin 0 → Fin S256x1x256.rank)
  bcast_S256x1x256_S256x512x256_0_1_2 : S256x1x256.BroadcastsInDim S256x512x256 (![0, 1, 2] : Fin 3 → Fin S256x512x256.rank)
  bcast_S_S256x256x256 : S_.BroadcastsInDim S256x256x256 (![] : Fin 0 → Fin S256x256x256.rank)
  bcast_S_S256x256 : S_.BroadcastsInDim S256x256 (![] : Fin 0 → Fin S256x256.rank)
  bcast_S256x256_S256x256x256_1_2 : S256x256.BroadcastsInDim S256x256x256 (![1, 2] : Fin 2 → Fin S256x256x256.rank)
  reducesTo_S256x256x256_S256_d1_2 : S256x256x256.ReducesTo [1, 2] S256
  bcast_S256_S256x1x1_0 : S256.BroadcastsInDim S256x1x1 (![0] : Fin 1 → Fin S256x1x1.rank)
  bcast_S256x1x1_S256x256x256_0_1_2 : S256x1x1.BroadcastsInDim S256x256x256 (![0, 1, 2] : Fin 3 → Fin S256x256x256.rank)
  dot_S256x512x256_S256x512x256_S256x256x256_1_1_2_2_0_0_wf : DotDims.WF S256x512x256 S256x512x256 S256x256x256 [1] [1] [2] [2] [0] [0]
  dot_S256x256x256_S256x256x256_S256x256x256_2_1_1_2_0_0_wf : DotDims.WF S256x256x256 S256x256x256 S256x256x256 [2] [1] [1] [2] [0] [0]
  dot_S256x512x256_S256x256x256_S256x512x256_2_1_1_2_0_0_wf : DotDims.WF S256x512x256 S256x256x256 S256x512x256 [2] [1] [1] [2] [0] [0]

variable [Facts₀]

def dot_S256x512x256_S256x512x256_S256x256x256_1_1_2_2_0_0 : DotDims S256x512x256 S256x512x256 S256x256x256 where
  lhsContracting := [1]
  rhsContracting := [1]
  lhsNonContracting := [2]
  rhsNonContracting := [2]
  lhsBatch := [0]
  rhsBatch := [0]
  wf := dot_S256x512x256_S256x512x256_S256x256x256_1_1_2_2_0_0_wf
def dot_S256x256x256_S256x256x256_S256x256x256_2_1_1_2_0_0 : DotDims S256x256x256 S256x256x256 S256x256x256 where
  lhsContracting := [2]
  rhsContracting := [1]
  lhsNonContracting := [1]
  rhsNonContracting := [2]
  lhsBatch := [0]
  rhsBatch := [0]
  wf := dot_S256x256x256_S256x256x256_S256x256x256_2_1_1_2_0_0_wf
def dot_S256x512x256_S256x256x256_S256x512x256_2_1_1_2_0_0 : DotDims S256x512x256 S256x256x256 S256x512x256 where
  lhsContracting := [2]
  rhsContracting := [1]
  lhsNonContracting := [1]
  rhsNonContracting := [2]
  lhsBatch := [0]
  rhsBatch := [0]
  wf := dot_S256x512x256_S256x256x256_S256x512x256_2_1_1_2_0_0_wf

class Facts : Prop extends Facts₀ where

variable [Facts]
-- ==== Proof.KernelDots.lean ====
/-
  The kernel's three batched matrix products read at an index.

  Each of the kernel's products has one batch axis (axis 0 of both operands and of the result) and one contracted axis.
  Read at the result index (n, i, j), a product into the zero accumulator is the sum over the contracted coordinate q
  of the left operand at (n, ·, ·) times the right operand at (n, ·, ·), with q on the contracted axis of each:
    * xnᵀ·xn : contracted axis 1 of both, result (n, d, e) = Σ_q l(n, q, d) · r(n, q, e);
    * P·Q    : contracted axis 2 of the left and 1 of the right, result (n, i, j) = Σ_q l(n, i, q) · r(n, q, j);
    * xn·W   : the same dimension numbers over a 512-row left operand.
-/
import proofs.«116937_j43765716746255_2_alg».proof.KernelIdeal
import Idealize.ShloMosaic.Lib.ValueIdx
import Idealize.ShloMosaic.PureOps.Ideal.Laws

noncomputable section

namespace Cert.KernelIdeal.Dots

open Cert.KernelIdeal Idealize.ShloMosaic Idealize.ShloMosaic.ValueIdx

variable [Facts₀]

/-- P·Q at (n, i, j). -/
theorem mm_apply {φ₁ φ₂ : FTy} (l : FVec Ideal S4x256x256 φ₁) (r : FVec Ideal S4x256x256 φ₂) (n : Fin 4) (i j : Fin 256) :
    matmul dot_S4x256x256_S4x256x256_S4x256x256_2_1_1_2_0_0 none l r (constant S4x256x256 .f32 0x00000000#32) (ix3 n i j)
      = ∑ q : Fin 256, l (ix3 n i q) * r (ix3 n q j) := by
  refine (Ideal.matmul_constant_zero_apply _ none l r (ix3 n i j)).trans ?_
  rw [← Equiv.sum_comp (contrEquiv1 dot_S4x256x256_S4x256x256_S4x256x256_2_1_1_2_0_0 256 rfl rfl).symm]
  refine Finset.sum_congr rfl fun q _ => ?_
  congr 2
  · funext a
    match a with
    | ⟨0, _⟩ => exact Fin.ext rfl
    | ⟨1, _⟩ => exact Fin.ext rfl
    | ⟨2, _⟩ =>
      refine Fin.ext ?_
      have h1 := DotDims.lhsIdx_val_of_single dot_S4x256x256_S4x256x256_S4x256x256_2_1_1_2_0_0 (cl := (2 : Fin 3)) rfl (ix3 n i j)
        ((contrEquiv1 dot_S4x256x256_S4x256x256_S4x256x256_2_1_1_2_0_0 256 rfl rfl).symm q)
      have h2 := contrEquiv1_symm_val dot_S4x256x256_S4x256x256_S4x256x256_2_1_1_2_0_0 256 rfl rfl q
      exact h1.trans h2
  · funext a
    match a with
    | ⟨0, _⟩ => exact Fin.ext rfl
    | ⟨1, _⟩ =>
      refine Fin.ext ?_
      have h1 := DotDims.rhsIdx_val_of_single dot_S4x256x256_S4x256x256_S4x256x256_2_1_1_2_0_0 (cr := (1 : Fin 3)) rfl (ix3 n i j)
        ((contrEquiv1 dot_S4x256x256_S4x256x256_S4x256x256_2_1_1_2_0_0 256 rfl rfl).symm q)
      have h2 := contrEquiv1_symm_val dot_S4x256x256_S4x256x256_S4x256x256_2_1_1_2_0_0 256 rfl rfl q
      exact h1.trans h2
    | ⟨2, _⟩ => exact Fin.ext rfl

/-- xnᵀ·xn at (n, d, e): the rows are contracted. -/
theorem gram_apply {φ₁ φ₂ : FTy} (l : FVec Ideal S4x512x256 φ₁) (r : FVec Ideal S4x512x256 φ₂) (n : Fin 4) (d e : Fin 256) :
    matmul dot_S4x512x256_S4x512x256_S4x256x256_1_1_2_2_0_0 none l r (constant S4x256x256 .f32 0x00000000#32) (ix3 n d e)
      = ∑ q : Fin 512, l (ix3 n q d) * r (ix3 n q e) := by
  refine (Ideal.matmul_constant_zero_apply _ none l r (ix3 n d e)).trans ?_
  rw [← Equiv.sum_comp (contrEquiv1 dot_S4x512x256_S4x512x256_S4x256x256_1_1_2_2_0_0 512 rfl rfl).symm]
  refine Finset.sum_congr rfl fun q _ => ?_
  congr 2
  · funext a
    match a with
    | ⟨0, _⟩ => exact Fin.ext rfl
    | ⟨1, _⟩ =>
      refine Fin.ext ?_
      have h1 := DotDims.lhsIdx_val_of_single dot_S4x512x256_S4x512x256_S4x256x256_1_1_2_2_0_0 (cl := (1 : Fin 3)) rfl (ix3 n d e)
        ((contrEquiv1 dot_S4x512x256_S4x512x256_S4x256x256_1_1_2_2_0_0 512 rfl rfl).symm q)
      have h2 := contrEquiv1_symm_val dot_S4x512x256_S4x512x256_S4x256x256_1_1_2_2_0_0 512 rfl rfl q
      exact h1.trans h2
    | ⟨2, _⟩ => exact Fin.ext rfl
  · funext a
    match a with
    | ⟨0, _⟩ => exact Fin.ext rfl
    | ⟨1, _⟩ =>
      refine Fin.ext ?_
      have h1 := DotDims.rhsIdx_val_of_single dot_S4x512x256_S4x512x256_S4x256x256_1_1_2_2_0_0 (cr := (1 : Fin 3)) rfl (ix3 n d e)
        ((contrEquiv1 dot_S4x512x256_S4x512x256_S4x256x256_1_1_2_2_0_0 512 rfl rfl).symm q)
      have h2 := contrEquiv1_symm_val dot_S4x512x256_S4x512x256_S4x256x256_1_1_2_2_0_0 512 rfl rfl q
      exact h1.trans h2
    | ⟨2, _⟩ => exact Fin.ext rfl

/-- xn·W at (n, m, e): the columns of xn against the rows of W. -/
theorem apply_apply {φ₁ φ₂ : FTy} (l : FVec Ideal S4x512x256 φ₁) (r : FVec Ideal S4x256x256 φ₂) (n : Fin 4) (m : Fin 512) (e : Fin 256) :
    matmul dot_S4x512x256_S4x256x256_S4x512x256_2_1_1_2_0_0 none l r (constant S4x512x256 .f32 0x00000000#32) (ix3 n m e)
      = ∑ q : Fin 256, l (ix3 n m q) * r (ix3 n q e) := by
  refine (Ideal.matmul_constant_zero_apply _ none l r (ix3 n m e)).trans ?_
  rw [← Equiv.sum_comp (contrEquiv1 dot_S4x512x256_S4x256x256_S4x512x256_2_1_1_2_0_0 256 rfl rfl).symm]
  refine Finset.sum_congr rfl fun q _ => ?_
  congr 2
  · funext a
    match a with
    | ⟨0, _⟩ => exact Fin.ext rfl
    | ⟨1, _⟩ => exact Fin.ext rfl
    | ⟨2, _⟩ =>
      refine Fin.ext ?_
      have h1 := DotDims.lhsIdx_val_of_single dot_S4x512x256_S4x256x256_S4x512x256_2_1_1_2_0_0 (cl := (2 : Fin 3)) rfl (ix3 n m e)
        ((contrEquiv1 dot_S4x512x256_S4x256x256_S4x512x256_2_1_1_2_0_0 256 rfl rfl).symm q)
      have h2 := contrEquiv1_symm_val dot_S4x512x256_S4x256x256_S4x512x256_2_1_1_2_0_0 256 rfl rfl q
      exact h1.trans h2
  · funext a
    match a with
    | ⟨0, _⟩ => exact Fin.ext rfl
    | ⟨1, _⟩ =>
      refine Fin.ext ?_
      have h1 := DotDims.rhsIdx_val_of_single dot_S4x512x256_S4x256x256_S4x512x256_2_1_1_2_0_0 (cr := (1 : Fin 3)) rfl (ix3 n m e)
        ((contrEquiv1 dot_S4x512x256_S4x256x256_S4x512x256_2_1_1_2_0_0 256 rfl rfl).symm q)
      have h2 := contrEquiv1_symm_val dot_S4x512x256_S4x256x256_S4x512x256_2_1_1_2_0_0 256 rfl rfl q
      exact h1.trans h2
    | ⟨2, _⟩ => exact Fin.ext rfl

end Cert.KernelIdeal.Dots

end
-- ==== Proof.KernelLayout.lean ====
/-
  The kernel's layout operations read at an index, at its literal shapes.

  A [4, 512, 256] block is indexed (n, m, d): batch entry, row, column. Summing over the rows leaves [4, 256], which the
  kernel views as [4, 1, 256] (keepdims) and spreads back over the 512 rows; summing that over the columns leaves [4, 1],
  viewed as [4, 1, 1] and spread over a [4, 256, 256] block. The identity matrix is built on [256, 256] from two index
  counters, viewed as [1, 256, 256] and spread over the four batch entries. Each lemma says which entry of the operand
  an entry of the result is.
-/
import proofs.«116937_j43765716746255_2_alg».proof.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layout

open Cert.KernelIdeal Idealize.ShloMosaic Idealize.ShloMosaic.ValueIdx

variable {α : Type}

/-- The sum over the rows of a [4, 512, 256] block, at (n, d). -/
theorem rowSum_apply (src : FVec Ideal S4x512x256 .f32) (h : S4x512x256.Reduces [1] S4x256) (hφ : FKind.Formats .f32)
    (hacc : (0x00000000#32 : BitVec 32) = 0x00000000#32) (n : Fin 4) (d : Fin 256) :
    multiReduction .add [1] S4x256 src 0x00000000#32 h hφ hacc (ix2 n d) = ∑ m : Fin 512, src (ix3 n m d) := by
  refine (Ideal.multiReduction_add_single src _ h hφ hacc (ix2 n d)).trans ?_
  show ∑ m : Fin 512, src (h.lift (ix2 n d) m) = _
  refine Finset.sum_congr rfl fun m _ => congrArg src ?_
  funext a
  match a with
  | ⟨0, _⟩ => exact Fin.ext rfl
  | ⟨1, _⟩ => exact Fin.ext rfl
  | ⟨2, _⟩ => exact Fin.ext rfl

/-- The sum over the columns of a [4, 1, 256] array, at (n, 0). -/
theorem colSum_apply (src : FVec Ideal S4x1x256 .f32) (h : S4x1x256.Reduces [2] S4x1) (hφ : FKind.Formats .f32)
    (hacc : (0x00000000#32 : BitVec 32) = 0x00000000#32) (n : Fin 4) (z : Fin 1) :
    multiReduction .add [2] S4x1 src 0x00000000#32 h hφ hacc (ix2 n z) = ∑ d : Fin 256, src (ix3 n z d) := by
  refine (Ideal.multiReduction_add_single src _ h hφ hacc (ix2 n z)).trans ?_
  show ∑ d : Fin 256, src (h.lift (ix2 n z) d) = _
  refine Finset.sum_congr rfl fun d _ => congrArg src ?_
  funext a
  match a with
  | ⟨0, _⟩ => exact Fin.ext rfl
  | ⟨1, _⟩ => exact Fin.ext rfl
  | ⟨2, _⟩ => exact Fin.ext rfl

/-- [4, 256] viewed as [4, 1, 256]. -/
theorem cast_4x256_4x1x256 (x : S4x256.Idx → α) (h : S4x256.ShapeCasts S4x1x256) (n : Fin 4) (z : Fin 1) (d : Fin 256) :
    shapeCast S4x1x256 x h (ix3 n z d) = x (ix2 n d) :=
  shapeCast_apply x h _ _ (by
    have hz : z.val = 0 := by omega
    rw [Shape.rowMajor_val_three, Shape.rowMajor_val_two]
    show n.val * 256 + d.val = (n.val * 1 + z.val) * 256 + d.val
    rw [hz]; omega)

/-- [4, 1] viewed as [4, 1, 1]. -/
theorem cast_4x1_4x1x1 (x : S4x1.Idx → α) (h : S4x1.ShapeCasts S4x1x1) (n : Fin 4) (z z' : Fin 1) :
    shapeCast S4x1x1 x h (ix3 n z z') = x (ix2 n z) :=
  shapeCast_apply x h _ _ (by
    have hz : z.val = 0 := by omega
    have hz' : z'.val = 0 := by omega
    rw [Shape.rowMajor_val_three, Shape.rowMajor_val_two]
    show n.val * 1 + z.val = (n.val * 1 + z.val) * 1 + z'.val
    rw [hz, hz']; omega)

/-- [4, 1, 256] spread over the 512 rows. -/
theorem bcast_4x1x256_rows (x : S4x1x256.Idx → α) (h : S4x1x256.Broadcasts S4x512x256) (n : Fin 4) (m : Fin 512) (d : Fin 256) :
    broadcastTo S4x512x256 x h (ix3 n m d) = x (ix3 n (0 : Fin 1) d) := by
  refine broadcastTo_apply x h (ix3 n m d) (ix3 n (0 : Fin 1) d) fun ax => ?_
  match ax with
  | ⟨0, _⟩ => rfl
  | ⟨1, _⟩ => rfl
  | ⟨2, _⟩ => rfl

/-- [4, 1, 1] spread over a [4, 256, 256] block. -/
theorem bcast_4x1x1_block (x : S4x1x1.Idx → α) (h : S4x1x1.Broadcasts S4x256x256) (n : Fin 4) (i j : Fin 256) :
    broadcastTo S4x256x256 x h (ix3 n i j) = x (ix3 n (0 : Fin 1) (0 : Fin 1)) := by
  refine broadcastTo_apply x h (ix3 n i j) (ix3 n (0 : Fin 1) (0 : Fin 1)) fun ax => ?_
  match ax with
  | ⟨0, _⟩ => rfl
  | ⟨1, _⟩ => rfl
  | ⟨2, _⟩ => rfl

/-- [1, 256, 256] spread over the four batch entries. -/
theorem bcast_1x256x256_batch (x : S1x256x256.Idx → α) (h : S1x256x256.Broadcasts S4x256x256) (n : Fin 4) (i j : Fin 256) :
    broadcastTo S4x256x256 x h (ix3 n i j) = x (ix3 (0 : Fin 1) i j) := by
  refine broadcastTo_apply x h (ix3 n i j) (ix3 (0 : Fin 1) i j) fun ax => ?_
  match ax with
  | ⟨0, _⟩ => rfl
  | ⟨1, _⟩ => rfl
  | ⟨2, _⟩ => rfl

/-- Two index counters below 256 are equal as 32-bit words exactly when they are equal. -/
theorem ofNat_eq_iff (i j : Fin 256) : BitVec.ofNat 32 i.val = BitVec.ofNat 32 j.val ↔ i = j := by
  constructor
  · intro h
    have := congrArg BitVec.toNat h
    rw [BitVec.toNat_ofNat, BitVec.toNat_ofNat] at this
    have hi := i.isLt; have hj := j.isLt
    exact Fin.ext (by omega)
  · rintro rfl; rfl

/-- The kernel's identity matrix: row counter = column counter, widened and converted, is 1 on the diagonal and 0 off it. -/
theorem eye_apply (h0 : S256x256.Iotas .tc 32 [0]) (h1 : S256x256.Iotas .tc 32 [1]) (hlt : 1 < 32) (i j : Fin 256) :
    (sitofp .f32 (extui 32 (cmpi .eq (iota .tc S256x256 32 [0] h0) (iota .tc S256x256 32 [1] h1)) hlt) : FVec Ideal S256x256 .f32) (ix2 i j)
      = if i = j then (1 : EReal) else 0 := by
  show ((((IntOp.cmpi .eq (iota .tc S256x256 32 [0] h0 (ix2 i j)) (iota .tc S256x256 32 [1] h1 (ix2 i j))).setWidth 32).toInt : ℝ) : EReal) = _
  rw [iota_single_apply, iota_single_apply]
  show ((((BitVec.ofBool (BitVec.ofNat 32 i.val == BitVec.ofNat 32 j.val)).setWidth 32).toInt : ℝ) : EReal) = _
  by_cases hij : i = j
  · subst hij; simp
  · have : (BitVec.ofNat 32 i.val == BitVec.ofNat 32 j.val) = false := by
      rw [beq_eq_false_iff_ne]; exact fun h => hij ((ofNat_eq_iff i j).mp h)
    rw [this, if_neg hij]; simp

end Cert.KernelIdeal.Layout

end
-- ==== Proof.Spec.lean ====
/-
  Whitening by a trace-normalised Newton–Schulz iteration, for ONE batch entry: a 512 × 256 matrix X of extended reals.

  Both programs centre the columns of X (xn), form the covariance sig = xnᵀ·xn / 511, divide it by its trace (sn),
  run the iteration P ← 1.5·P − 0.5·(P·P·P)·sn, scale P by the inverse square root of the trace, and return xn·(that).
  They differ in three places, and this module names both spellings:
    * the trace: the kernel sums the squares of xn and divides once (trK); the reference sums the diagonal of sig, each
      entry already divided (trR);
    * the first step: the reference starts from the identity and takes four steps; the kernel starts from
      1.5·I − 0.5·sn (the first step applied to the identity, worked out) and takes three;
    * the scale: the kernel multiplies by rsqrt(trace); the reference divides by sqrt(trace).
  The float literals 512, 511, 1.5 and 0.5 are kept as the bit patterns the programs print.
-/
import Idealize.ShloMosaic.PureOps.Ideal

noncomputable section

namespace Cert.Whiten

open Idealize.ShloMosaic

/-- An r × c matrix of extended reals. -/
abbrev Mat (r c : Nat) := Fin r → Fin c → EReal

/-- The literal 512.0. -/
def c512 : EReal := Ideal.ofBits .f32 0x44000000#32
/-- The literal 511.0. -/
def c511 : EReal := Ideal.ofBits .f32 0x43FF8000#32
/-- The literal 1.5. -/
def c15 : EReal := Ideal.ofBits .f32 0x3FC00000#32
/-- The literal 0.5. -/
def c05 : EReal := Ideal.ofBits .f32 0x3F000000#32

/-- The mean of column d. -/
def mean (X : Mat 512 256) (d : Fin 256) : EReal := Ideal.div (∑ m : Fin 512, X m d) c512
/-- X with each column's mean taken off. -/
def xn (X : Mat 512 256) : Mat 512 256 := fun m d => X m d - mean X d
/-- The covariance of the columns. -/
def sig (X : Mat 512 256) : Mat 256 256 := fun d e => Ideal.div (∑ m : Fin 512, xn X m d * xn X m e) c511
/-- The trace as the kernel computes it: all squares summed, divided once. -/
def trK (X : Mat 512 256) : EReal := Ideal.div (∑ d : Fin 256, ∑ m : Fin 512, xn X m d * xn X m d) c511
/-- The trace as the reference computes it: the covariance masked to its diagonal, summed over both axes. -/
def trR (X : Mat 512 256) : EReal := ∑ d : Fin 256, ∑ e : Fin 256, (if d = e then sig X d e else 0)
/-- The identity matrix. -/
def eye : Mat 256 256 := fun i j => if i = j then 1 else 0
/-- The product of two 256 × 256 matrices. -/
def mm (A B : Mat 256 256) : Mat 256 256 := fun i j => ∑ k : Fin 256, A i k * B k j
/-- One Newton–Schulz step against the normalised covariance S. -/
def step (S P : Mat 256 256) : Mat 256 256 := fun i j => c15 * P i j - c05 * mm (mm (mm P P) P) S i j
/-- The covariance over the kernel's trace. -/
def snK (X : Mat 512 256) : Mat 256 256 := fun d e => Ideal.div (sig X d e) (trK X)
/-- The covariance over the reference's trace. -/
def snR (X : Mat 512 256) : Mat 256 256 := fun d e => Ideal.div (sig X d e) (trR X)
/-- The kernel's starting matrix: the first step from the identity, worked out. -/
def p1K (X : Mat 512 256) : Mat 256 256 := fun i j => c15 * eye i j - c05 * snK X i j
/-- The kernel's iterate: three steps from p1K. -/
def pK (X : Mat 512 256) : Mat 256 256 := step (snK X) (step (snK X) (step (snK X) (p1K X)))
/-- The reference's iterate: four steps from the identity. -/
def pR (X : Mat 512 256) : Mat 256 256 := step (snR X) (step (snR X) (step (snR X) (step (snR X) eye)))
/-- The kernel's whitening matrix. -/
def wmK (X : Mat 512 256) : Mat 256 256 := fun d e => pK X d e * Ideal.rsqrt (trK X)
/-- The reference's whitening matrix. -/
def wmR (X : Mat 512 256) : Mat 256 256 := fun d e => Ideal.div (pR X d e) (Ideal.sqrt (trR X))
/-- The kernel's result. -/
def outK (X : Mat 512 256) : Mat 512 256 := fun m e => ∑ d : Fin 256, xn X m d * wmK X d e
/-- The reference's result. -/
def outR (X : Mat 512 256) : Mat 512 256 := fun m e => ∑ d : Fin 256, xn X m d * wmR X d e

end Cert.Whiten

end
-- ==== Proof.KernelRead.lean ====
/-
  What the kernel's body computes, entry by entry.

  The body loads a [4, 512, 256] block v0: four batch entries. Write X n for batch entry n of the block, the 512 × 256
  matrix (m, d) ↦ v0 (n, m, d). Every value the body forms is read here at an index with batch coordinate n and found
  to be the matching quantity of the specification at X n: the centred matrix, the trace (sum of all squares over 511),
  the normalised covariance, the starting matrix 1.5·I − 0.5·sn, the three Newton–Schulz steps, and finally
  xn · (P · rsqrt(trace)). Nothing here uses a property of the numbers: each line is the definition of the operation
  at an index.
-/
import proofs.«116937_j43765716746255_2_alg».proof.Proof.Gen.KernelIdeal.Skeleton
import proofs.«116937_j43765716746255_2_alg».proof.Proof.KernelDots
import proofs.«116937_j43765716746255_2_alg».proof.Proof.KernelLayout
import proofs.«116937_j43765716746255_2_alg».proof.Proof.Spec

noncomputable section

namespace Cert.KernelIdeal.Read

open Cert.KernelIdeal Cert.KernelIdeal.Gen Cert.KernelIdeal.Dots Cert.KernelIdeal.Layout Cert.Whiten
open Idealize.ShloMosaic Idealize.ShloMosaic.ValueIdx

/-- Batch entry n of a block, as a matrix. -/
def slab (v0 : Vec Ideal S4x512x256 .f32) (n : Fin 4) : Mat 512 256 := fun m d => v0 (ix3 n m d)

/-- The centred block. -/
theorem pay2_apply (v0 : Vec Ideal S4x512x256 .f32) (n : Fin 4) (m : Fin 512) (d : Fin 256) :
    k0_pay2 v0 (ix3 n m d) = xn (slab v0 n) m d := by
  unfold k0_pay2
  simp only [subf_apply, bcast_4x1x256_rows, divf_apply, cast_4x256_4x1x256, broadcast_apply]
  rw [rowSum_apply]
  rfl

/-- The trace: every square summed, over 511. -/
theorem pay4_apply (v0 : Vec Ideal S4x512x256 .f32) (n : Fin 4) (z z' : Fin 1) :
    k0_pay4 v0 (ix3 n z z') = trK (slab v0 n) := by
  unfold k0_pay4 trK
  simp only [divf_apply, cast_4x1_4x1x1, broadcast_apply]
  rw [colSum_apply]
  refine congrArg₂ Ideal.div (Finset.sum_congr rfl fun d _ => ?_) rfl
  rw [cast_4x256_4x1x256, rowSum_apply]
  refine Finset.sum_congr rfl fun m _ => ?_
  rw [mulf_apply, pay2_apply]

/-- The covariance over the trace. -/
theorem pay5_apply (v0 : Vec Ideal S4x512x256 .f32) (n : Fin 4) (d e : Fin 256) :
    k0_pay5 v0 (ix3 n d e) = snK (slab v0 n) d e := by
  unfold k0_pay5 k0_pay3
  simp only [divf_apply, bcast_4x1x1_block, pay4_apply, gram_apply, truncf_apply, pay2_apply, broadcast_apply]
  rfl

/-- The starting matrix 1.5·I − 0.5·sn. -/
theorem pay7_apply (v0 : Vec Ideal S4x512x256 .f32) (n : Fin 4) (i j : Fin 256) :
    k0_pay7 v0 (ix3 n i j) = p1K (slab v0 n) i j := by
  unfold k0_pay7
  simp only [subf_apply, bcast_1x256x256_batch, mulf_apply, shapeCast_ab_1ab_apply, pay5_apply, broadcast_apply]
  rw [eye_apply]
  rfl

/-- Three products in a row: ((P·P)·P)·S, each operand read through its change of format. -/
theorem cube_apply (P : FVec Ideal S4x256x256 .f32) (S : FVec Ideal S4x256x256 .bf16) (n : Fin 4) (Pm Sm : Mat 256 256)
    (hP : ∀ i j, P (ix3 n i j) = Pm i j) (hS : ∀ i j, S (ix3 n i j) = Sm i j) (i j : Fin 256) :
    matmul dot_S4x256x256_S4x256x256_S4x256x256_2_1_1_2_0_0 none
      (truncf .bf16 (matmul dot_S4x256x256_S4x256x256_S4x256x256_2_1_1_2_0_0 none
        (truncf .bf16 (matmul dot_S4x256x256_S4x256x256_S4x256x256_2_1_1_2_0_0 none (truncf .bf16 P bitsLt_bf16_f32) (truncf .bf16 P bitsLt_bf16_f32)
          (constant S4x256x256 .f32 0x00000000#32)) bitsLt_bf16_f32)
        (truncf .bf16 P bitsLt_bf16_f32) (constant S4x256x256 .f32 0x00000000#32)) bitsLt_bf16_f32)
      S (constant S4x256x256 .f32 0x00000000#32) (ix3 n i j)
      = mm (mm (mm Pm Pm) Pm) Sm i j := by
  simp only [mm_apply, truncf_apply, hP, hS]
  rfl

/-- The first step's product ((P₁·P₁)·P₁)·sn. -/
theorem pay8_apply (v0 : Vec Ideal S4x512x256 .f32) (n : Fin 4) (i j : Fin 256) :
    k0_pay8 v0 (ix3 n i j) = mm (mm (mm (p1K (slab v0 n)) (p1K (slab v0 n))) (p1K (slab v0 n))) (snK (slab v0 n)) i j := by
  unfold k0_pay8 k0_pay6
  exact cube_apply (k0_pay7 v0) _ n _ _ (fun i j => pay7_apply v0 n i j) (fun i j => pay5_apply v0 n i j) i j

/-- 1.5·P₁. -/
theorem pay9_apply (v0 : Vec Ideal S4x512x256 .f32) (n : Fin 4) (i j : Fin 256) :
    k0_pay9 v0 (ix3 n i j) = c15 * p1K (slab v0 n) i j := by
  unfold k0_pay9
  simp only [mulf_apply, pay7_apply, broadcast_apply]
  rfl

/-- The constant 0.5. -/
theorem pay10_apply (i : S4x256x256.Idx) : k0_pay10 (F := Ideal) i = c05 := rfl

/-- One whole step read at an index: 1.5·P − 0.5·((P·P)·P)·S. -/
theorem step_apply (P : FVec Ideal S4x256x256 .f32) (S : FVec Ideal S4x256x256 .bf16) (n : Fin 4) (Pm Sm : Mat 256 256)
    (hP : ∀ i j, P (ix3 n i j) = Pm i j) (hS : ∀ i j, S (ix3 n i j) = Sm i j) (i j : Fin 256) :
    subf (mulf (broadcast S4x256x256 (Scalar.ofBits .f32 0x3FC00000#32)) P)
      (mulf (broadcast S4x256x256 (Scalar.ofBits .f32 0x3F000000#32))
        (matmul dot_S4x256x256_S4x256x256_S4x256x256_2_1_1_2_0_0 none
          (truncf .bf16 (matmul dot_S4x256x256_S4x256x256_S4x256x256_2_1_1_2_0_0 none
            (truncf .bf16 (matmul dot_S4x256x256_S4x256x256_S4x256x256_2_1_1_2_0_0 none (truncf .bf16 P bitsLt_bf16_f32) (truncf .bf16 P bitsLt_bf16_f32)
              (constant S4x256x256 .f32 0x00000000#32)) bitsLt_bf16_f32)
            (truncf .bf16 P bitsLt_bf16_f32) (constant S4x256x256 .f32 0x00000000#32)) bitsLt_bf16_f32)
          S (constant S4x256x256 .f32 0x00000000#32))) (ix3 n i j)
      = step Sm Pm i j := by
  simp only [subf_apply, mulf_apply, broadcast_apply, cube_apply P S n Pm Sm hP hS, hP]
  rfl

/-- The rest of the body: from the centred block, the trace, the normalised covariance and the first step's pieces to
    the stored result, xn · (P · rsqrt(trace)) with P three steps on. -/
theorem pay1_apply (v7 : FVec Ideal S4x512x256 .bf16) (v17 : FVec Ideal S4x1x1 .f32) (v25 : FVec Ideal S4x256x256 .bf16)
    (v38 v40 v41 : FVec Ideal S4x256x256 .f32) (n : Fin 4) (XN : Mat 512 256) (T : EReal) (Sm P1 : Mat 256 256)
    (h7 : ∀ m d, v7 (ix3 n m d) = XN m d) (h17 : v17 (ix3 n (0 : Fin 1) (0 : Fin 1)) = T)
    (h25 : ∀ i j, v25 (ix3 n i j) = Sm i j) (h38 : ∀ i j, v38 (ix3 n i j) = mm (mm (mm P1 P1) P1) Sm i j)
    (h40 : ∀ i j, v40 (ix3 n i j) = c15 * P1 i j) (h41 : ∀ i j, v41 (ix3 n i j) = c05) (m : Fin 512) (e : Fin 256) :
    k0_pay1 v7 v17 v25 v38 v40 v41 (ix3 n m e)
      = ∑ d : Fin 256, XN m d * (step Sm (step Sm (step Sm P1)) d e * Ideal.rsqrt T) := by
  have h43 : ∀ i j, (subf v40 (mulf v41 v38)) (ix3 n i j) = step Sm P1 i j := fun i j => by
    simp only [subf_apply, mulf_apply, h40, h41, h38]; rfl
  have h54 := step_apply (subf v40 (mulf v41 v38)) v25 n _ _ h43 h25
  have h65 := step_apply _ v25 n _ _ h54 h25
  unfold k0_pay1
  refine (apply_apply v7 _ n m e).trans ?_
  refine Finset.sum_congr rfl fun q _ => ?_
  rw [h7]
  refine congrArg (XN m q * ·) ?_
  exact congrArg₂ (· * ·) (h65 q e) ((bcast_4x1x1_block (rsqrt v17) _ n q e).trans (congrArg Ideal.rsqrt h17))

/-- The whole body at an index: the kernel's result for batch entry n of the block. -/
theorem body_apply (v0 : Vec Ideal S4x512x256 .f32) (n : Fin 4) (m : Fin 512) (e : Fin 256) :
    k0_pay1 (k0_pay3 v0) (k0_pay4 v0) (k0_pay6 v0) (k0_pay8 v0) (k0_pay9 v0) (k0_pay10 (F := Ideal)) (ix3 n m e)
      = outK (slab v0 n) m e := by
  refine (pay1_apply _ _ _ _ _ _ n (xn (slab v0 n)) (trK (slab v0 n)) (snK (slab v0 n)) (p1K (slab v0 n))
    ?_ ?_ ?_ ?_ ?_ ?_ m e).trans ?_
  · intro m d; exact pay2_apply v0 n m d
  · exact pay4_apply v0 n 0 0
  · intro i j; exact pay5_apply v0 n i j
  · intro i j; exact pay8_apply v0 n i j
  · intro i j; exact pay9_apply v0 n i j
  · intro i j; rfl
  · rfl

end Cert.KernelIdeal.Read

end
-- ==== Proof.KernelWhole.lean ====
/-
  From blocks to the whole array.

  The grid has 64 points; point t stages rows 4t … 4t+3 of the batch axis of the input (all 512 × 256 of each) and
  writes back the same rows of the output. The body's result at (p, q, r) of its block depends on batch entry p of the
  block only, which is batch entry 4t + p of the array. So what point t writes back is block t of ONE function of the
  whole input array: at (n, m, e), the specification's kernel-side result for batch entry n, at (m, e). The 64 blocks
  cover the array (the point covering batch entry n is n / 4), so the array ends holding that function everywhere.
-/
import proofs.«116937_j43765716746255_2_alg».proof.Proof.Gen.KernelIdeal.Value
import proofs.«116937_j43765716746255_2_alg».proof.Proof.KernelRead

noncomputable section

namespace Cert.KernelIdeal.Whole

open Cert.KernelIdeal Cert.KernelIdeal.Gen Cert.KernelIdeal.Read Cert.Whiten
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The output array as one function of the input array: entry (n, m, e) is the whitening of batch entry n, at (m, e). -/
def G (x : S256x512x256.Idx → EReal) : S256x512x256.Idx → EReal :=
  fun i => outK (fun m' d => x (ix3 (i 0) m' d)) (i 1) (i 2)

theorem hz : (![0, 0, 0] : Fin 3 → Nat) = fun _ => 0 := funext fun a => by fin_cases a <;> rfl

/-- Both windows sit at block (t, 0, 0) at point t. -/
theorem idx_facts : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0 :=
  (by decide +kernel : ∀ t : Fin grid0.N, _)

/-- Every block row of the batch axis is some point's. -/
theorem idx_onto : ∀ q0 : Fin 64, ∃ t : Fin cfg0.N, win0_1.index t = ![q0.val, 0, 0] :=
  (by decide +kernel : ∀ q0 : Fin 64, ∃ t : Fin grid0.N, win0_1.index t = ![q0.val, 0, 0])

/-- What point t writes back is block t of G of the input array. -/
theorem flushed_eq (c : Dev nD) (t : Fin cfg0.N) :
    (dats m 0 c).flushed 1 t = ((cfg0.win 1).blk t).view.read (Elt Ideal) (G (V m c main_arg0)) := by
  show (cfg0.win 1).cut (grid0.coords t) ((dats m 0 c).after 1 t) = _
  rw [after0_1]
  unfold out0_1
  rw [View.canon_unit_zero hz]
  simp only [View.ld_unit_zero (S := S4x512x256) hz]
  obtain ⟨e0, e1, e2, f1, f2⟩ := idx_facts t
  funext j
  obtain ⟨p, q, r, rfl⟩ : ∃ (p : Fin 4) (q : Fin 512) (r : Fin 256), j = ix3 p q r := ⟨j 0, j 1, j 2, eq_ix3 j⟩
  show k0_pay1 (k0_pay3 (iblk m c 0 t)) (k0_pay4 (iblk m c 0 t)) (k0_pay6 (iblk m c 0 t)) (k0_pay8 (iblk m c 0 t))
      (k0_pay9 (iblk m c 0 t)) (k0_pay10 (F := Ideal)) (ix3 p q r)
    = G (V m c main_arg0) (((cfg0.win 1).blk t).view.emb (ix3 p q r))
  refine (body_apply (iblk m c 0 t) p q r).trans ?_
  unfold G
  have hq : (((cfg0.win 1).blk t).view.emb (ix3 p q r)) (1 : Fin 3) = q :=
    Fin.ext (by show win0_1.index t (1 : Fin 3) * 512 + 1 * q.val = q.val; omega)
  have hr : (((cfg0.win 1).blk t).view.emb (ix3 p q r)) (2 : Fin 3) = r :=
    Fin.ext (by show win0_1.index t (2 : Fin 3) * 256 + 1 * r.val = r.val; omega)
  have hslab : slab (iblk m c 0 t) p
      = fun m' d => V m c main_arg0 (ix3 ((((cfg0.win 1).blk t).view.emb (ix3 p q r)) (0 : Fin 3)) m' d) := by
    funext m' d
    show V m c main_arg0 (((cfg0.win 0).blk t).view.emb (ix3 p m' d)) = _
    refine congrArg _ (funext fun a => Fin.ext ?_)
    match a with
    | ⟨0, _⟩ => show win0_0.index t (0 : Fin 3) * 4 + 1 * p.val = win0_1.index t (0 : Fin 3) * 4 + 1 * p.val; omega
    | ⟨1, _⟩ => show win0_0.index t (1 : Fin 3) * 512 + 1 * m'.val = m'.val; omega
    | ⟨2, _⟩ => show win0_0.index t (2 : Fin 3) * 256 + 1 * d.val = d.val; omega
  rw [hslab, hq, hr]

/-- An index of the array is in point t's block iff each coordinate is in the block's range on its axis. -/
theorem mem_blk (t : Fin cfg0.N) (i : S256x512x256.Idx) :
    i ∈ ((cfg0.win 1).blk t).view.set ↔ ∀ a : Fin 3, win0_1.index t a * S4x512x256.size a ≤ (i a).val
      ∧ (i a).val < win0_1.index t a * S4x512x256.size a + S4x512x256.size a := by
  show i ∈ ((View.whole main_v0).slice (win0_1.rect t)).set ↔ _
  rw [View.set_slice_whole, Rect.mem_set_unit]
  exact Iff.rfl

/-- Every index of the array lies in some point's block: the point of batch entry n is n / 4. -/
theorem cover (i : S256x512x256.Idx) :
    ∃ t : Fin cfg0.N, (cfg0.win 1).flush t = true ∧ i ∈ ((cfg0.win 1).blk t).view.set := by
  have hi0 : (i 0).val < 256 := (i 0).isLt
  have hi1 : (i 1).val < 512 := (i 1).isLt
  have hi2 : (i 2).val < 256 := (i 2).isLt
  obtain ⟨t, ht⟩ := idx_onto ⟨(i 0).val / 4, by omega⟩
  have q0 : win0_1.index t (0 : Fin 3) = (i 0).val / 4 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 4 ≤ (i 0).val ∧ (i 0).val < win0_1.index t (0 : Fin 3) * 4 + 4; omega
  | ⟨1, _⟩ => show win0_1.index t (1 : Fin 3) * 512 ≤ (i 1).val ∧ (i 1).val < win0_1.index t (1 : Fin 3) * 512 + 512; omega
  | ⟨2, _⟩ => show win0_1.index t (2 : Fin 3) * 256 ≤ (i 2).val ∧ (i 2).val < win0_1.index t (2 : Fin 3) * 256 + 256; omega

/-- The output array after the run is G of the input array. -/
theorem final (c : Dev nD) : (dats m 0 c).arrAt 1 cfg0.N = G (m ((c : Thread nD τ).loc main_arg0)) :=
  (dats m 0 c).arrAt_eq_of_cover 1 (G (V m c main_arg0)) (fun t _ => flushed_eq m c t) cover

/-- The kernel's run, read: the output array is G of the input array, the input unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.Whole

end
-- ==== Proof.RefOps.lean ====
/-
  The reference program's @main as a LIST of its 79 host operations, in program order: @main's own, and at each call the
  callee's operations over the call's record of buffers and the caller's argument buffers (the callee's body unfolded at
  the call, which is what inlining the call is). The k-th operation (k = 0 …) writes the buffer numbered k + 1; buffer 0
  is the argument and is never written. A table, no proof: every entry is the term of the program's own line.
-/
import proofs.«116937_j43765716746255_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 79 operations, in order, the calls' operations inline. -/
abbrev ops : List (HloOp τ sig (Elt F)) :=
  [ StableHlo.nullary main_cst (constant S_ .f32 0x00000000#32),
    StableHlo.binary main_arg0 main_cst main_v0 ((fun x v => Host.reduceAdd x v reducesTo_S256x512x256_S256x256_d1 h_S_) : (⟨S256x512x256, .f32⟩ : BufTy).Contents (Elt F) → (⟨S_, .f32⟩ : BufTy).Contents (Elt F) → (⟨S256x256, .f32⟩ : BufTy).Contents (Elt F)),
    StableHlo.unary main_v0 main_v1 (broadcastInDim S256x1x256 ![0, 2] bcast_S256x256_S256x1x256_0_2 : (⟨S256x256, .f32⟩ : BufTy).Contents (Elt F) → (⟨S256x1x256, .f32⟩ : BufTy).Contents (Elt F)),
    StableHlo.nullary main_cst_0 (constant S_ .f32 0x44000000#32),
    StableHlo.unary main_cst_0 main_v2 (broadcastInDim S256x1x256 ![] bcast_S_S256x1x256 : (⟨S_, .f32⟩ : BufTy).Contents (Elt F) → (⟨S256x1x256, .f32⟩ : BufTy).Contents (Elt F)),
    StableHlo.binary main_v1 main_v2 main_v3 (Host.divf : (⟨S256x1x256, .f32⟩ : BufTy).Contents (Elt F) → (⟨S256x1x256, .f32⟩ : BufTy).Contents (Elt F) → (⟨S256x1x256, .f32⟩ : BufTy).Contents (Elt F)),
    StableHlo.unary main_v3 main_v4 (broadcastInDim S256x512x256 ![0, 1, 2] bcast_S256x1x256_S256x512x256_0_1_2 : (⟨S256x1x256, .f32⟩ : BufTy).Contents (Elt F) → (⟨S256x512x256, .f32⟩ : BufTy).Contents (Elt F)),
    StableHlo.binary main_arg0 main_v4 main_v5 (subf : (⟨S256x512x256, .f32⟩ : BufTy).Contents (Elt F) → (⟨S256x512x256, .f32⟩ : BufTy).Contents (Elt F) → (⟨S256x512x256, .f32⟩ : BufTy).Contents (Elt F)),
    StableHlo.binary main_v5 main_v5 main_v6 ((fun l r => Host.dotGeneral dot_S256x512x256_S256x512x256_S256x256x256_1_1_2_2_0_0 none l r) : (⟨S256x512x256, .f32⟩ : BufTy).Contents (Elt F) → (⟨S256x512x256, .f32⟩ : BufTy).Contents (Elt F) → (⟨S256x256x256, .f32⟩ : BufTy).Contents (Elt F)),
    StableHlo.nullary main_cst_1 (constant S_ .f32 0x43FF8000#32),
    StableHlo.unary main_cst_1 main_v7 (broadcastInDim S256x256x256 ![] bcast_S_S256x256x256 : (⟨S_, .f32⟩ : BufTy).Contents (Elt F) → (⟨S256x256x256, .f32⟩ : BufTy).Contents (Elt F)),
    StableHlo.binary main_v6 main_v7 main_v8 (Host.divf : (⟨S256x256x256, .f32⟩ : BufTy).Contents (Elt F) → (⟨S256x256x256, .f32⟩ : BufTy).Contents (Elt F) → (⟨S256x256x256, .f32⟩ : BufTy).Contents (Elt F)),
    StableHlo.TRef.nullary main_call0.v0 (iotaInDim S256x256 32 0),
    StableHlo.TRef.nullary main_call0.v1 (iotaInDim S256x256 32 1),
    StableHlo.TRef.nullary main_call0.c (constantI S_ 32 0#32),
    StableHlo.TRef.unary main_call0.c main_call0.v2 (broadcastInDim S256x256 ![] bcast_S_S256x256),
    StableHlo.TRef.binary main_call0.v0 main_call0.v2 main_call0.v3 addi,
    StableHlo.TRef.binary main_call0.v3 main_call0.v1 main_call0.v4 (cmpi .eq),
    StableHlo.TRef.nullary main_call0.cst (constant S_ .f32 0x00000000#32),
    StableHlo.TRef.unary main_call0.cst main_call0.v5 (broadcastInDim S256x256x256 ![] bcast_S_S256x256x256),
    StableHlo.TRef.unary main_call0.v4 main_call0.call0.v0 (broadcastInDim S256x256x256 ![1, 2] bcast_S256x256_S256x256x256_1_2),
    StableHlo.TRef.ternary main_call0.call0.v0 (.of main_v8) main_call0.v5 main_call0.call0.v1 select,
    StableHlo.TRef.nullary main_call0.cst_0 (constant S_ .f32 0x00000000#32),
    StableHlo.TRef.binary main_call0.call0.v1 main_call0.cst_0 main_call0.v7 (fun x v => Host.reduceAdd x v reducesTo_S256x256x256_S256_d1_2 h_S_),
    StableHlo.unary main_v9 main_v10 (broadcastInDim S256x1x1 ![0] bcast_S256_S256x1x1_0 : (⟨S256, .f32⟩ : BufTy).Contents (Elt F) → (⟨S256x1x1, .f32⟩ : BufTy).Contents (Elt F)),
    StableHlo.unary main_v10 main_v11 (broadcastInDim S256x256x256 ![0, 1, 2] bcast_S256x1x1_S256x256x256_0_1_2 : (⟨S256x1x1, .f32⟩ : BufTy).Contents (Elt F) → (⟨S256x256x256, .f32⟩ : BufTy).Contents (Elt F)),
    StableHlo.binary main_v8 main_v11 main_v12 (Host.divf : (⟨S256x256x256, .f32⟩ : BufTy).Contents (Elt F) → (⟨S256x256x256, .f32⟩ : BufTy).Contents (Elt F) → (⟨S256x256x256, .f32⟩ : BufTy).Contents (Elt F)),
    StableHlo.nullary main_v13 (iotaInDim S256x256 32 0),
    StableHlo.nullary main_v14 (iotaInDim S256x256 32 1),
    StableHlo.nullary main_c (constantI S_ 32 0#32),
    StableHlo.unary main_c main_v15 (broadcastInDim S256x256 ![] bcast_S_S256x256 : (⟨S_, .i32⟩ : BufTy).Contents (Elt F) → (⟨S256x256, .i32⟩ : BufTy).Contents (Elt F)),
    StableHlo.binary main_v13 main_v15 main_v16 (addi : (⟨S256x256, .i32⟩ : BufTy).Contents (Elt F) → (⟨S256x256, .i32⟩ : BufTy).Contents (Elt F) → (⟨S256x256, .i32⟩ : BufTy).Contents (Elt F)),
    StableHlo.binary main_v16 main_v14 main_v17 (cmpi .eq : (⟨S256x256, .i32⟩ : BufTy).Contents (Elt F) → (⟨S256x256, .i32⟩ : BufTy).Contents (Elt F) → (⟨S256x256, .i1⟩ : BufTy).Contents (Elt F)),
    StableHlo.unary main_v17 main_v18 (uitofp .f32 : (⟨S256x256, .i1⟩ : BufTy).Contents (Elt F) → (⟨S256x256, .f32⟩ : BufTy).Contents (Elt F)),
    StableHlo.unary main_v18 main_v19 (broadcastInDim S256x256x256 ![1, 2] bcast_S256x256_S256x256x256_1_2 : (⟨S256x256, .f32⟩ : BufTy).Contents (Elt F) → (⟨S256x256x256, .f32⟩ : BufTy).Contents (Elt F)),
    StableHlo.binary main_v19 main_v19 main_v20 ((fun l r => Host.dotGeneral dot_S256x256x256_S256x256x256_S256x256x256_2_1_1_2_0_0 none l r) : (⟨S256x256x256, .f32⟩ : BufTy).Contents (Elt F) → (⟨S256x256x256, .f32⟩ : BufTy).Contents (Elt F) → (⟨S256x256x256, .f32⟩ : BufTy).Contents (Elt F)),
    StableHlo.binary main_v20 main_v19 main_v21 ((fun l r => Host.dotGeneral dot_S256x256x256_S256x256x256_S256x256x256_2_1_1_2_0_0 none l r) : (⟨S256x256x256, .f32⟩ : BufTy).Contents (Elt F) → (⟨S256x256x256, .f32⟩ : BufTy).Contents (Elt F) → (⟨S256x256x256, .f32⟩ : BufTy).Contents (Elt F)),
    StableHlo.nullary main_cst_2 (constant S_ .f32 0x3FC00000#32),
    StableHlo.unary main_cst_2 main_v22 (broadcastInDim S256x256x256 ![] bcast_S_S256x256x256 : (⟨S_, .f32⟩ : BufTy).Contents (Elt F) → (⟨S256x256x256, .f32⟩ : BufTy).Contents (Elt F)),
    StableHlo.binary main_v22 main_v19 main_v23 (mulf : (⟨S256x256x256, .f32⟩ : BufTy).Contents (Elt F) → (⟨S256x256x256, .f32⟩ : BufTy).Contents (Elt F) → (⟨S256x256x256, .f32⟩ : BufTy).Contents (Elt F)),
    StableHlo.binary main_v21 main_v12 main_v24 ((fun l r => Host.dotGeneral dot_S256x256x256_S256x256x256_S256x256x256_2_1_1_2_0_0 none l r) : (⟨S256x256x256, .f32⟩ : BufTy).Contents (Elt F) → (⟨S256x256x256, .f32⟩ : BufTy).Contents (Elt F) → (⟨S256x256x256, .f32⟩ : BufTy).Contents (Elt F)),
    StableHlo.nullary main_cst_3 (constant S_ .f32 0x3F000000#32),
    StableHlo.unary main_cst_3 main_v25 (broadcastInDim S256x256x256 ![] bcast_S_S256x256x256 : (⟨S_, .f32⟩ : BufTy).Contents (Elt F) → (⟨S256x256x256, .f32⟩ : BufTy).Contents (Elt F)),
    StableHlo.binary main_v25 main_v24 main_v26 (mulf : (⟨S256x256x256, .f32⟩ : BufTy).Contents (Elt F) → (⟨S256x256x256, .f32⟩ : BufTy).Contents (Elt F) → (⟨S256x256x256, .f32⟩ : BufTy).Contents (Elt F)),
    StableHlo.binary main_v23 main_v26 main_v27 (subf : (⟨S256x256x256, .f32⟩ : BufTy).Contents (Elt F) → (⟨S256x256x256, .f32⟩ : BufTy).Contents (Elt F) → (⟨S256x256x256, .f32⟩ : BufTy).Contents (Elt F)),
    StableHlo.binary main_v27 main_v27 main_v28 ((fun l r => Host.dotGeneral dot_S256x256x256_S256x256x256_S256x256x256_2_1_1_2_0_0 none l r) : (⟨S256x256x256, .f32⟩ : BufTy).Contents (Elt F) → (⟨S256x256x256, .f32⟩ : BufTy).Contents (Elt F) → (⟨S256x256x256, .f32⟩ : BufTy).Contents (Elt F)),
    StableHlo.binary main_v28 main_v27 main_v29 ((fun l r => Host.dotGeneral dot_S256x256x256_S256x256x256_S256x256x256_2_1_1_2_0_0 none l r) : (⟨S256x256x256, .f32⟩ : BufTy).Contents (Elt F) → (⟨S256x256x256, .f32⟩ : BufTy).Contents (Elt F) → (⟨S256x256x256, .f32⟩ : BufTy).Contents (Elt F)),
    StableHlo.nullary main_cst_4 (constant S_ .f32 0x3FC00000#32),
    StableHlo.unary main_cst_4 main_v30 (broadcastInDim S256x256x256 ![] bcast_S_S256x256x256 : (⟨S_, .f32⟩ : BufTy).Contents (Elt F) → (⟨S256x256x256, .f32⟩ : BufTy).Contents (Elt F)),
    StableHlo.binary main_v30 main_v27 main_v31 (mulf : (⟨S256x256x256, .f32⟩ : BufTy).Contents (Elt F) → (⟨S256x256x256, .f32⟩ : BufTy).Contents (Elt F) → (⟨S256x256x256, .f32⟩ : BufTy).Contents (Elt F)),
    StableHlo.binary main_v29 main_v12 main_v32 ((fun l r => Host.dotGeneral dot_S256x256x256_S256x256x256_S256x256x256_2_1_1_2_0_0 none l r) : (⟨S256x256x256, .f32⟩ : BufTy).Contents (Elt F) → (⟨S256x256x256, .f32⟩ : BufTy).Contents (Elt F) → (⟨S256x256x256, .f32⟩ : BufTy).Contents (Elt F)),
    StableHlo.nullary main_cst_5 (constant S_ .f32 0x3F000000#32),
    StableHlo.unary main_cst_5 main_v33 (broadcastInDim S256x256x256 ![] bcast_S_S256x256x256 : (⟨S_, .f32⟩ : BufTy).Contents (Elt F) → (⟨S256x256x256, .f32⟩ : BufTy).Contents (Elt F)),
    StableHlo.binary main_v33 main_v32 main_v34 (mulf : (⟨S256x256x256, .f32⟩ : BufTy).Contents (Elt F) → (⟨S256x256x256, .f32⟩ : BufTy).Contents (Elt F) → (⟨S256x256x256, .f32⟩ : BufTy).Contents (Elt F)),
    StableHlo.binary main_v31 main_v34 main_v35 (subf : (⟨S256x256x256, .f32⟩ : BufTy).Contents (Elt F) → (⟨S256x256x256, .f32⟩ : BufTy).Contents (Elt F) → (⟨S256x256x256, .f32⟩ : BufTy).Contents (Elt F)),
    StableHlo.binary main_v35 main_v35 main_v36 ((fun l r => Host.dotGeneral dot_S256x256x256_S256x256x256_S256x256x256_2_1_1_2_0_0 none l r) : (⟨S256x256x256, .f32⟩ : BufTy).Contents (Elt F) → (⟨S256x256x256, .f32⟩ : BufTy).Contents (Elt F) → (⟨S256x256x256, .f32⟩ : BufTy).Contents (Elt F)),
    StableHlo.binary main_v36 main_v35 main_v37 ((fun l r => Host.dotGeneral dot_S256x256x256_S256x256x256_S256x256x256_2_1_1_2_0_0 none l r) : (⟨S256x256x256, .f32⟩ : BufTy).Contents (Elt F) → (⟨S256x256x256, .f32⟩ : BufTy).Contents (Elt F) → (⟨S256x256x256, .f32⟩ : BufTy).Contents (Elt F)),
    StableHlo.nullary main_cst_6 (constant S_ .f32 0x3FC00000#32),
    StableHlo.unary main_cst_6 main_v38 (broadcastInDim S256x256x256 ![] bcast_S_S256x256x256 : (⟨S_, .f32⟩ : BufTy).Contents (Elt F) → (⟨S256x256x256, .f32⟩ : BufTy).Contents (Elt F)),
    StableHlo.binary main_v38 main_v35 main_v39 (mulf : (⟨S256x256x256, .f32⟩ : BufTy).Contents (Elt F) → (⟨S256x256x256, .f32⟩ : BufTy).Contents (Elt F) → (⟨S256x256x256, .f32⟩ : BufTy).Contents (Elt F)),
    StableHlo.binary main_v37 main_v12 main_v40 ((fun l r => Host.dotGeneral dot_S256x256x256_S256x256x256_S256x256x256_2_1_1_2_0_0 none l r) : (⟨S256x256x256, .f32⟩ : BufTy).Contents (Elt F) → (⟨S256x256x256, .f32⟩ : BufTy).Contents (Elt F) → (⟨S256x256x256, .f32⟩ : BufTy).Contents (Elt F)),
    StableHlo.nullary main_cst_7 (constant S_ .f32 0x3F000000#32),
    StableHlo.unary main_cst_7 main_v41 (broadcastInDim S256x256x256 ![] bcast_S_S256x256x256 : (⟨S_, .f32⟩ : BufTy).Contents (Elt F) → (⟨S256x256x256, .f32⟩ : BufTy).Contents (Elt F)),
    StableHlo.binary main_v41 main_v40 main_v42 (mulf : (⟨S256x256x256, .f32⟩ : BufTy).Contents (Elt F) → (⟨S256x256x256, .f32⟩ : BufTy).Contents (Elt F) → (⟨S256x256x256, .f32⟩ : BufTy).Contents (Elt F)),
    StableHlo.binary main_v39 main_v42 main_v43 (subf : (⟨S256x256x256, .f32⟩ : BufTy).Contents (Elt F) → (⟨S256x256x256, .f32⟩ : BufTy).Contents (Elt F) → (⟨S256x256x256, .f32⟩ : BufTy).Contents (Elt F)),
    StableHlo.binary main_v43 main_v43 main_v44 ((fun l r => Host.dotGeneral dot_S256x256x256_S256x256x256_S256x256x256_2_1_1_2_0_0 none l r) : (⟨S256x256x256, .f32⟩ : BufTy).Contents (Elt F) → (⟨S256x256x256, .f32⟩ : BufTy).Contents (Elt F) → (⟨S256x256x256, .f32⟩ : BufTy).Contents (Elt F)),
    StableHlo.binary main_v44 main_v43 main_v45 ((fun l r => Host.dotGeneral dot_S256x256x256_S256x256x256_S256x256x256_2_1_1_2_0_0 none l r) : (⟨S256x256x256, .f32⟩ : BufTy).Contents (Elt F) → (⟨S256x256x256, .f32⟩ : BufTy).Contents (Elt F) → (⟨S256x256x256, .f32⟩ : BufTy).Contents (Elt F)),
    StableHlo.nullary main_cst_8 (constant S_ .f32 0x3FC00000#32),
    StableHlo.unary main_cst_8 main_v46 (broadcastInDim S256x256x256 ![] bcast_S_S256x256x256 : (⟨S_, .f32⟩ : BufTy).Contents (Elt F) → (⟨S256x256x256, .f32⟩ : BufTy).Contents (Elt F)),
    StableHlo.binary main_v46 main_v43 main_v47 (mulf : (⟨S256x256x256, .f32⟩ : BufTy).Contents (Elt F) → (⟨S256x256x256, .f32⟩ : BufTy).Contents (Elt F) → (⟨S256x256x256, .f32⟩ : BufTy).Contents (Elt F)),
    StableHlo.binary main_v45 main_v12 main_v48 ((fun l r => Host.dotGeneral dot_S256x256x256_S256x256x256_S256x256x256_2_1_1_2_0_0 none l r) : (⟨S256x256x256, .f32⟩ : BufTy).Contents (Elt F) → (⟨S256x256x256, .f32⟩ : BufTy).Contents (Elt F) → (⟨S256x256x256, .f32⟩ : BufTy).Contents (Elt F)),
    StableHlo.nullary main_cst_9 (constant S_ .f32 0x3F000000#32),
    StableHlo.unary main_cst_9 main_v49 (broadcastInDim S256x256x256 ![] bcast_S_S256x256x256 : (⟨S_, .f32⟩ : BufTy).Contents (Elt F) → (⟨S256x256x256, .f32⟩ : BufTy).Contents (Elt F)),
    StableHlo.binary main_v49 main_v48 main_v50 (mulf : (⟨S256x256x256, .f32⟩ : BufTy).Contents (Elt F) → (⟨S256x256x256, .f32⟩ : BufTy).Contents (Elt F) → (⟨S256x256x256, .f32⟩ : BufTy).Contents (Elt F)),
    StableHlo.binary main_v47 main_v50 main_v51 (subf : (⟨S256x256x256, .f32⟩ : BufTy).Contents (Elt F) → (⟨S256x256x256, .f32⟩ : BufTy).Contents (Elt F) → (⟨S256x256x256, .f32⟩ : BufTy).Contents (Elt F)),
    StableHlo.unary main_v10 main_v52 (Host.sqrt : (⟨S256x1x1, .f32⟩ : BufTy).Contents (Elt F) → (⟨S256x1x1, .f32⟩ : BufTy).Contents (Elt F)),
    StableHlo.unary main_v52 main_v53 (broadcastInDim S256x256x256 ![0, 1, 2] bcast_S256x1x1_S256x256x256_0_1_2 : (⟨S256x1x1, .f32⟩ : BufTy).Contents (Elt F) → (⟨S256x256x256, .f32⟩ : BufTy).Contents (Elt F)),
    StableHlo.binary main_v51 main_v53 main_v54 (Host.divf : (⟨S256x256x256, .f32⟩ : BufTy).Contents (Elt F) → (⟨S256x256x256, .f32⟩ : BufTy).Contents (Elt F) → (⟨S256x256x256, .f32⟩ : BufTy).Contents (Elt F)),
    StableHlo.binary main_v5 main_v54 main_v55 ((fun l r => Host.dotGeneral dot_S256x512x256_S256x256x256_S256x512x256_2_1_1_2_0_0 none l r) : (⟨S256x512x256, .f32⟩ : BufTy).Contents (Elt F) → (⟨S256x256x256, .f32⟩ : BufTy).Contents (Elt F) → (⟨S256x512x256, .f32⟩ : BufTy).Contents (Elt F)) ]

end Cert.ReferenceIdeal.RefRun

end
-- ==== Proof.LibSsaFold.lean ====
/-
  A straight line of host operations in which every buffer is written once: the final contents satisfy every operation's
  own equation.
  The contents after a list of operations are a fold: each operation rewrites the buffer it writes from the contents
  before it. When the operations after a given one write neither its operands nor its result, and its operands are not
  its result, nothing that matters changes after it ran: the FINAL contents of its result buffer are its function of
  the FINAL contents of its operand buffers. So a long host program can be read one operation at a time, every
  intermediate named by its buffer, without ever composing the operations into one term.
-/
import Idealize.ShloMosaic.Lib.StableHlo.Run

namespace Cert.Lib.SsaFold

open Idealize.ShloMosaic Idealize.ShloMosaic.StableHlo

variable {τ : Topo} {sig : RefSig} {Val : EltTy → Type}

/-- The fold over two lists one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- At a buffer the operations after `op` do not write, the final contents are what `op` left. -/
theorem after_mid (pre post : List (HloOp τ sig Val)) (op : HloOp τ sig Val) (V : Valuation τ sig Val)
    (b : DevRef τ sig) (hb : ∀ o ∈ post, b ∉ o.writes) :
    after (pre ++ op :: post) V b = op.result (after pre V) b := by
  rw [after_append, after_cons, after_of_forall_not_mem post _ hb]

section Builders

variable {x a b c y : Ref sig .tc}

/-- `%y = f %x` in the middle of a line: finally `y` holds `f` of what `x` finally holds. -/
theorem after_unary (pre post : List (HloOp τ sig Val)) (f : x.ty.Contents Val → y.ty.Contents Val) (hx hy)
    (V : Valuation τ sig Val) (hxy : x ≠ y)
    (hpost : ∀ o ∈ post, Proc.devRef (τ := τ) .tc x ∉ o.writes ∧ Proc.devRef (τ := τ) .tc y ∉ o.writes) :
    after (pre ++ unary (τ := τ) x y f hx hy :: post) V (Proc.devRef .tc y)
      = f (after (pre ++ unary (τ := τ) x y f hx hy :: post) V (Proc.devRef .tc x)) := by
  rw [after_mid pre post _ V _ (fun o ho => (hpost o ho).2), after_mid pre post _ V _ (fun o ho => (hpost o ho).1),
    unary_result', HloOp.result_of_not_mem _ _ (by
      rw [unary_writes]; exact fun h => devRef_ne_of_ne hxy (Finset.mem_singleton.mp h))]

/-- `%y = f %a %b` in the middle of a line. -/
theorem after_binary (pre post : List (HloOp τ sig Val)) (f : a.ty.Contents Val → b.ty.Contents Val → y.ty.Contents Val)
    (ha hb hy) (V : Valuation τ sig Val) (hay : a ≠ y) (hby : b ≠ y)
    (hpost : ∀ o ∈ post, Proc.devRef (τ := τ) .tc a ∉ o.writes ∧ Proc.devRef (τ := τ) .tc b ∉ o.writes
      ∧ Proc.devRef (τ := τ) .tc y ∉ o.writes) :
    after (pre ++ binary (τ := τ) a b y f ha hb hy :: post) V (Proc.devRef .tc y)
      = f (after (pre ++ binary (τ := τ) a b y f ha hb hy :: post) V (Proc.devRef .tc a))
          (after (pre ++ binary (τ := τ) a b y f ha hb hy :: post) V (Proc.devRef .tc b)) := by
  rw [after_mid pre post _ V _ (fun o ho => (hpost o ho).2.2), after_mid pre post _ V _ (fun o ho => (hpost o ho).1),
    after_mid pre post _ V _ (fun o ho => (hpost o ho).2.1), binary_result',
    HloOp.result_of_not_mem _ _ (by
      rw [binary_writes]; exact fun h => devRef_ne_of_ne hay (Finset.mem_singleton.mp h)),
    HloOp.result_of_not_mem _ _ (by
      rw [binary_writes]; exact fun h => devRef_ne_of_ne hby (Finset.mem_singleton.mp h))]

/-- `%y = f %c %a %b` in the middle of a line. -/
theorem after_ternary (pre post : List (HloOp τ sig Val))
    (f : c.ty.Contents Val → a.ty.Contents Val → b.ty.Contents Val → y.ty.Contents Val)
    (hc ha hb hy) (V : Valuation τ sig Val) (hcy : c ≠ y) (hay : a ≠ y) (hby : b ≠ y)
    (hpost : ∀ o ∈ post, Proc.devRef (τ := τ) .tc c ∉ o.writes ∧ Proc.devRef (τ := τ) .tc a ∉ o.writes
      ∧ Proc.devRef (τ := τ) .tc b ∉ o.writes ∧ Proc.devRef (τ := τ) .tc y ∉ o.writes) :
    after (pre ++ ternary (τ := τ) c a b y f hc ha hb hy :: post) V (Proc.devRef .tc y)
      = f (after (pre ++ ternary (τ := τ) c a b y f hc ha hb hy :: post) V (Proc.devRef .tc c))
          (after (pre ++ ternary (τ := τ) c a b y f hc ha hb hy :: post) V (Proc.devRef .tc a))
          (after (pre ++ ternary (τ := τ) c a b y f hc ha hb hy :: post) V (Proc.devRef .tc b)) := by
  rw [after_mid pre post _ V _ (fun o ho => (hpost o ho).2.2.2), after_mid pre post _ V _ (fun o ho => (hpost o ho).1),
    after_mid pre post _ V _ (fun o ho => (hpost o ho).2.1), after_mid pre post _ V _ (fun o ho => (hpost o ho).2.2.1),
    ternary_result',
    HloOp.result_of_not_mem _ _ (by
      rw [ternary_writes]; exact fun h => devRef_ne_of_ne hcy (Finset.mem_singleton.mp h)),
    HloOp.result_of_not_mem _ _ (by
      rw [ternary_writes]; exact fun h => devRef_ne_of_ne hay (Finset.mem_singleton.mp h)),
    HloOp.result_of_not_mem _ _ (by
      rw [ternary_writes]; exact fun h => devRef_ne_of_ne hby (Finset.mem_singleton.mp h))]

/-- A constant in the middle of a line: finally `y` holds it. -/
theorem after_nullary (pre post : List (HloOp τ sig Val)) (v : y.ty.Contents Val) (hy) (V : Valuation τ sig Val)
    (hpost : ∀ o ∈ post, Proc.devRef (τ := τ) .tc y ∉ o.writes) :
    after (pre ++ nullary (τ := τ) y v hy :: post) V (Proc.devRef .tc y) = v := by
  rw [after_mid pre post _ V _ hpost, nullary_result']

end Builders

end Cert.Lib.SsaFold
-- ==== Proof.LibSsaFold2.lean ====
/-
  A straight line of host operations whose k-th operation writes the reference numbered n + k, read one operation at a
  time.

  When the operations of a line write, in order, the references numbered n, n + 1, n + 2, … (every buffer written
  once, in the order of the numbering), an operation at position k whose operands are numbered below n + k reads only
  buffers that nothing at or after position k writes, and nothing after it writes its result. So the FINAL contents of
  its result buffer are its function of the FINAL contents of its operand buffers — the equation of that one
  operation, stated over the contents after the whole line — and a reference numbered below n is never written.
  The side conditions are a position in the list and comparisons of numbers.
-/
import Idealize.ShloMosaic.Lib.StableHlo.Run
import proofs.«116937_j43765716746255_2_alg».proof.Proof.LibSsaFold

namespace Cert.Lib.SsaFold2

open Idealize.ShloMosaic Idealize.ShloMosaic.StableHlo Cert.Lib.SsaFold

variable {τ : Topo} {sig : RefSig} {Val : EltTy → Type}

/-- The operations write, in order, exactly the references numbered `n`, `n + 1`, …: one reference each; each touches
    TensorCore references only and determines what it writes. -/
inductive Numbered : Nat → List (HloOp τ sig Val) → Prop
  | nil (n : Nat) : Numbered n []
  | cons {n : Nat} {op : HloOp τ sig Val} {ops : List (HloOp τ sig Val)} (y : Ref sig .tc)
      (hw : op.writes = {Proc.devRef (τ := τ) .tc y}) (hy : y.idx.val = n) (hs : op.bufs ⊆ tcRefs τ sig)
      (hf : op.fresh = ∅) (h : Numbered (n + 1) ops) : Numbered n (op :: ops)

namespace Numbered

/-- Two numbered lines one after the other, the second starting where the first ends. -/
theorem append {n m : Nat} {l₁ l₂ : List (HloOp τ sig Val)} (h₁ : Numbered n l₁) (hm : n + l₁.length = m)
    (h₂ : Numbered m l₂) : Numbered n (l₁ ++ l₂) := by
  induction h₁ generalizing m with
  | nil n => simp only [List.length_nil, Nat.add_zero] at hm; subst hm; exact h₂
  | cons y hw hy hs hf _ ih =>
    rw [List.cons_append]
    exact .cons y hw hy hs hf (ih (by simp only [List.length_cons] at hm; omega) h₂)

/-- No operation of a line numbered from `n` writes a reference numbered below `n`. -/
theorem not_mem_writes {n : Nat} {ops : List (HloOp τ sig Val)} (h : Numbered n ops) :
    ∀ o ∈ ops, ∀ r : Ref sig .tc, r.idx.val < n → Proc.devRef (τ := τ) .tc r ∉ o.writes := by
  induction h with
  | nil n => intro o ho; cases ho
  | cons y hw hy _ _ _ ih =>
    intro o ho r hr
    rcases List.mem_cons.mp ho with rfl | ho
    · rw [hw, Finset.mem_singleton]
      intro e
      have : r = y := Proc.devRef_injective _ e
      subst this; omega
    · exact ih o ho r (by omega)

/-- The line from position `k` on is numbered from `n + k`. -/
theorem drop {n : Nat} {ops : List (HloOp τ sig Val)} (h : Numbered n ops) : ∀ k, Numbered (n + k) (ops.drop k) := by
  induction h with
  | nil n => intro k; rw [List.drop_nil]; exact .nil _
  | @cons n op ops y hw hy hs hf h ih =>
    intro k
    cases k with
    | zero => exact .cons y hw hy hs hf h
    | succ k =>
      rw [List.drop_succ_cons, show n + (k + 1) = n + 1 + k by omega]
      exact ih k

/-- Every operation of a numbered line touches TensorCore references only. -/
theorem bufs_sub {n : Nat} {ops : List (HloOp τ sig Val)} (h : Numbered n ops) :
    ops.Forall fun op => op.bufs ⊆ tcRefs τ sig := by
  rw [List.forall_iff_forall_mem]
  induction h with
  | nil n => intro o ho; cases ho
  | cons y _ _ hs _ _ ih =>
    intro o ho
    rcases List.mem_cons.mp ho with rfl | ho
    · exact hs
    · exact ih o ho

/-- Every operation of a numbered line determines what it writes. -/
theorem fresh {n : Nat} {ops : List (HloOp τ sig Val)} (h : Numbered n ops) : ∀ op ∈ ops, op.fresh = ∅ := by
  induction h with
  | nil n => intro o ho; cases ho
  | cons y _ _ _ hf _ ih =>
    intro o ho
    rcases List.mem_cons.mp ho with rfl | ho
    · exact hf
    · exact ih o ho

end Numbered

/-- A list with an element at position `k` is what precedes it, it, and what follows. -/
theorem eq_take_cons_drop {α : Type _} : ∀ (l : List α) (k : Nat) (a : α), l[k]? = some a → l = l.take k ++ a :: l.drop (k + 1)
  | [], _, _, h => by simp at h
  | b :: l, 0, a, h => by
    simp only [List.getElem?_cons_zero, Option.some.injEq] at h
    subst h; rfl
  | b :: l, k + 1, a, h => by
    have := eq_take_cons_drop l k a (by simpa using h)
    simp only [List.take_succ_cons, List.drop_succ_cons, List.cons_append]
    exact congrArg (List.cons b) this

variable {n : Nat} {ops : List (HloOp τ sig Val)}

/-- A reference numbered below `n + k` holds finally what it held before position `k`. -/
theorem after_eq_take (hN : Numbered n ops) (k : Nat) (r : Ref sig .tc) (hr : r.idx.val < n + k) (V : Valuation τ sig Val) :
    after ops V (Proc.devRef .tc r) = after (ops.take k) V (Proc.devRef .tc r) := by
  have h : after (ops.take k ++ ops.drop k) V (Proc.devRef .tc r) = after (ops.take k) V (Proc.devRef .tc r) := by
    rw [after_append, after_of_forall_not_mem _ _ fun o ho => (hN.drop k).not_mem_writes o ho r hr]
  rwa [List.take_append_drop] at h

/-- A reference numbered below `n` is never written: finally it holds what it held at the start. -/
theorem after_arg (hN : Numbered n ops) (r : Ref sig .tc) (hr : r.idx.val < n) (V : Valuation τ sig Val) :
    after ops V (Proc.devRef .tc r) = V (Proc.devRef .tc r) :=
  after_of_forall_not_mem ops V fun o ho => hN.not_mem_writes o ho r hr

/-- The result of the operation at position `k`, numbered `n + k`, is finally what that operation left. -/
theorem after_eq_result (hN : Numbered n ops) (k : Nat) (op : HloOp τ sig Val) (hk : ops[k]? = some op)
    (y : Ref sig .tc) (hy : y.idx.val = n + k) (V : Valuation τ sig Val) :
    after ops V (Proc.devRef .tc y) = op.result (after (ops.take k) V) (Proc.devRef .tc y) := by
  have h := after_mid (ops.take k) (ops.drop (k + 1)) op V (Proc.devRef .tc y)
    fun o ho => (hN.drop (k + 1)).not_mem_writes o ho y (by omega)
  rwa [← eq_take_cons_drop ops k op hk] at h

section Builders

variable {x a b c y : Ref sig .tc}

/-- A constant at position `k`. -/
theorem at_nullary (hN : Numbered n ops) (k : Nat) {v : y.ty.Contents Val} {hy}
    (hk : ops[k]? = some (nullary (τ := τ) y v hy)) (hy' : y.idx.val = n + k) (V : Valuation τ sig Val) :
    after ops V (Proc.devRef .tc y) = v := by
  rw [after_eq_result hN k _ hk y hy' V, nullary_result']

/-- `%y = f %x` at position `k`, `x` numbered below it. -/
theorem at_unary (hN : Numbered n ops) (k : Nat) {f : x.ty.Contents Val → y.ty.Contents Val} {hx hy}
    (hk : ops[k]? = some (unary (τ := τ) x y f hx hy)) (hx' : x.idx.val < n + k) (hy' : y.idx.val = n + k)
    (V : Valuation τ sig Val) :
    after ops V (Proc.devRef .tc y) = f (after ops V (Proc.devRef .tc x)) := by
  rw [after_eq_result hN k _ hk y hy' V, unary_result', after_eq_take hN k x hx' V]

/-- `%y = f %a %b` at position `k`, the operands numbered below it. -/
theorem at_binary (hN : Numbered n ops) (k : Nat) {f : a.ty.Contents Val → b.ty.Contents Val → y.ty.Contents Val} {ha hb hy}
    (hk : ops[k]? = some (binary (τ := τ) a b y f ha hb hy)) (ha' : a.idx.val < n + k) (hb' : b.idx.val < n + k)
    (hy' : y.idx.val = n + k) (V : Valuation τ sig Val) :
    after ops V (Proc.devRef .tc y) = f (after ops V (Proc.devRef .tc a)) (after ops V (Proc.devRef .tc b)) := by
  rw [after_eq_result hN k _ hk y hy' V, binary_result', after_eq_take hN k a ha' V, after_eq_take hN k b hb' V]

/-- `%y = f %c %a %b` at position `k`, the operands numbered below it. -/
theorem at_ternary (hN : Numbered n ops) (k : Nat)
    {f : c.ty.Contents Val → a.ty.Contents Val → b.ty.Contents Val → y.ty.Contents Val} {hc ha hb hy}
    (hk : ops[k]? = some (ternary (τ := τ) c a b y f hc ha hb hy)) (hc' : c.idx.val < n + k) (ha' : a.idx.val < n + k)
    (hb' : b.idx.val < n + k) (hy' : y.idx.val = n + k) (V : Valuation τ sig Val) :
    after ops V (Proc.devRef .tc y)
      = f (after ops V (Proc.devRef .tc c)) (after ops V (Proc.devRef .tc a)) (after ops V (Proc.devRef .tc b)) := by
  rw [after_eq_result hN k _ hk y hy' V, ternary_result', after_eq_take hN k c hc' V, after_eq_take hN k a ha' V,
    after_eq_take hN k b hb' V]

/-- `%y = reshape %x` at position `k`, `x` numbered below it. -/
theorem at_reshape (hN : Numbered n ops) (k : Nat) {he : x.ty.elt = y.ty.elt} {hn : x.ty.shape.ShapeCasts y.ty.shape} {hx hy}
    (hk : ops[k]? = some (reshape (τ := τ) (Val := Val) x y he hn hx hy)) (hx' : x.idx.val < n + k)
    (hy' : y.idx.val = n + k) (V : Valuation τ sig Val) :
    after ops V (Proc.devRef .tc y) = fun i => he ▸ shapeCast y.ty.shape (after ops V (Proc.devRef .tc x)) hn i := by
  rw [after_eq_result hN k _ hk y hy' V, reshape_result', after_eq_take hN k x hx' V]

end Builders

end Cert.Lib.SsaFold2
-- ==== Proof.RefRun.lean ====
/-
  The reference program's run, read back as a fold over its operations.

  @main, with its two calls unfolded, is the straight line of the 79 operations listed in RefOps (main_eq); the signature
  scopes nothing; the k-th operation writes exactly the buffer numbered k + 1 (numbered). So every weakly fair
  execution terminates, with every buffer at the fold of the operations' results over the launch contents (run_main).
-/
import proofs.«116937_j43765716746255_2_alg».proof.Proof.RefOps
import proofs.«116937_j43765716746255_2_alg».proof.Proof.LibSsaFold2

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Lib.SsaFold2

variable {F : FTy → Type} [FloatOps F]

/-- @main is that straight line. A program is a tree of requests and sequencing grafts a continuation onto every leaf,
    by computation; so @main's two windows run in order, the called functions' bodies unfolded at their calls and their
    records at their fields, compute to the same chain of steps as the list run one operation after the other. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

section Steps
variable {n : Nat} {l : List (HloOp τ sig (Elt F))} {x a b c y : Ref sig .tc}

/-- A constant, numbered n, before a line numbered from n + 1. -/
private theorem n0 {v : y.ty.Contents (Elt F)} {hy} (h : y.idx.val = n) (t : Numbered (n + 1) l) :
    Numbered n (nullary (τ := τ) y v hy :: l) :=
  .cons y (nullary_writes ..) h (nullary_bufs_sub ..) rfl t

/-- A one-operand operation, numbered n, before a line numbered from n + 1. -/
private theorem n1 {f : x.ty.Contents (Elt F) → y.ty.Contents (Elt F)} {hx hy} (h : y.idx.val = n)
    (t : Numbered (n + 1) l) : Numbered n (unary (τ := τ) x y f hx hy :: l) :=
  .cons y (unary_writes ..) h (unary_bufs_sub ..) rfl t

/-- A two-operand operation, numbered n, before a line numbered from n + 1. -/
private theorem n2 {f : a.ty.Contents (Elt F) → b.ty.Contents (Elt F) → y.ty.Contents (Elt F)} {ha hb hy}
    (h : y.idx.val = n) (t : Numbered (n + 1) l) : Numbered n (binary (τ := τ) a b y f ha hb hy :: l) :=
  .cons y (binary_writes ..) h (binary_bufs_sub ..) rfl t

/-- A three-operand operation, numbered n, before a line numbered from n + 1. -/
private theorem n3 {f : c.ty.Contents (Elt F) → a.ty.Contents (Elt F) → b.ty.Contents (Elt F) → y.ty.Contents (Elt F)}
    {hc ha hb hy} (h : y.idx.val = n) (t : Numbered (n + 1) l) :
    Numbered n (ternary (τ := τ) c a b y f hc ha hb hy :: l) :=
  .cons y (ternary_writes ..) h (ternary_bufs_sub ..) rfl t

end Steps

/-- The operations write, in order, the buffers numbered 1, 2, …, 79: one step per operation, by its operand count, the
    result buffer's number read off by computation. -/
theorem numbered : Numbered (τ := τ) 1 (ops (F := F)) :=
  -- @main's first twelve: buffers 1 … 12
  n0 rfl <| n2 rfl <| n1 rfl <| n0 rfl <| n1 rfl <| n2 rfl <| n1 rfl <| n2 rfl <| n2 rfl <| n0 rfl <| n1 rfl <| n2 rfl <|
  -- the trace's twelve, the select's two among them: buffers 13 … 24
  n0 rfl <| n0 rfl <| n0 rfl <| n1 rfl <| n2 rfl <| n2 rfl <| n0 rfl <| n1 rfl <| n1 rfl <| n3 rfl <| n0 rfl <| n2 rfl <|
  -- the normalised covariance and the identity: buffers 25 … 35
  n1 rfl <| n1 rfl <| n2 rfl <| n0 rfl <| n0 rfl <| n0 rfl <| n1 rfl <| n2 rfl <| n2 rfl <| n1 rfl <| n1 rfl <|
  -- four steps of ten operations each: buffers 36 … 75
  n2 rfl <| n2 rfl <| n0 rfl <| n1 rfl <| n2 rfl <| n2 rfl <| n0 rfl <| n1 rfl <| n2 rfl <| n2 rfl <|
  n2 rfl <| n2 rfl <| n0 rfl <| n1 rfl <| n2 rfl <| n2 rfl <| n0 rfl <| n1 rfl <| n2 rfl <| n2 rfl <|
  n2 rfl <| n2 rfl <| n0 rfl <| n1 rfl <| n2 rfl <| n2 rfl <| n0 rfl <| n1 rfl <| n2 rfl <| n2 rfl <|
  n2 rfl <| n2 rfl <| n0 rfl <| n1 rfl <| n2 rfl <| n2 rfl <| n0 rfl <| n1 rfl <| n2 rfl <| n2 rfl <|
  -- the square root, its broadcast, the division, the last product: buffers 76 … 79
  n1 rfl <| n1 rfl <| n2 rfl <| n2 rfl <| .nil _

/-- At the compiled mesh, for any float values, from any memory with zero counters: every weakly fair execution of @main
    on the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => numbered.bufs_sub) m ρ
    (fun _ => numbered.fresh)

end Cert.ReferenceIdeal.RefRun

end
-- ==== Proof.RefEqs.lean ====
/-
  The reference program read one operation at a time.

  The line of RefOps writes the buffers numbered 1, 2, …, 79 in order (RefRun.numbered), and every operand of an operation
  is numbered below its result. So, from any contents V, the FINAL contents of each buffer are that operation's own
  function of the FINAL contents of its operand buffers: one equation per buffer, none composed with another; and the
  argument, numbered 0, is never written.
-/
import proofs.«116937_j43765716746255_2_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Lib.SsaFold2

variable {F : FTy → Type} [FloatOps F] (V : Valuation τ sig (Elt F))

-- every equation below is ABOUT the fold over the 79 operations and never computes through it: kept folded, the two sides
-- of an equation are compared at the operation's function and its operand buffers only
attribute [local irreducible] after

/-- The argument is never written. -/
theorem arg0_kept : after ops V (main_arg0 : DevRef τ sig) = V (main_arg0 : DevRef τ sig) :=
  after_arg numbered main_arg0 (by decide) V

/-! ## Centring the columns, the covariance -/

theorem eq_main_cst : after ops V (main_cst : DevRef τ sig) = constant S_ .f32 0x00000000#32 :=
  at_nullary numbered 0 (y := main_cst) rfl rfl V

theorem eq_main_v0 : after ops V (main_v0 : DevRef τ sig)
    = Host.reduceAdd (after ops V (main_arg0 : DevRef τ sig)) (after ops V (main_cst : DevRef τ sig))
        reducesTo_S256x512x256_S256x256_d1 h_S_ :=
  at_binary numbered 1 (a := main_arg0) (b := main_cst) (y := main_v0) rfl (by decide) (by decide) rfl V

theorem eq_main_v1 : after ops V (main_v1 : DevRef τ sig)
    = broadcastInDim S256x1x256 ![0, 2] bcast_S256x256_S256x1x256_0_2 (after ops V (main_v0 : DevRef τ sig)) :=
  at_unary numbered 2 (x := main_v0) (y := main_v1) rfl (by decide) rfl V

theorem eq_main_cst_0 : after ops V (main_cst_0 : DevRef τ sig) = constant S_ .f32 0x44000000#32 :=
  at_nullary numbered 3 (y := main_cst_0) rfl rfl V

theorem eq_main_v2 : after ops V (main_v2 : DevRef τ sig)
    = broadcastInDim S256x1x256 ![] bcast_S_S256x1x256 (after ops V (main_cst_0 : DevRef τ sig)) :=
  at_unary numbered 4 (x := main_cst_0) (y := main_v2) rfl (by decide) rfl V

theorem eq_main_v3 : after ops V (main_v3 : DevRef τ sig)
    = Host.divf (after ops V (main_v1 : DevRef τ sig)) (after ops V (main_v2 : DevRef τ sig)) :=
  at_binary numbered 5 (a := main_v1) (b := main_v2) (y := main_v3) rfl (by decide) (by decide) rfl V

theorem eq_main_v4 : after ops V (main_v4 : DevRef τ sig)
    = broadcastInDim S256x512x256 ![0, 1, 2] bcast_S256x1x256_S256x512x256_0_1_2 (after ops V (main_v3 : DevRef τ sig)) :=
  at_unary numbered 6 (x := main_v3) (y := main_v4) rfl (by decide) rfl V

theorem eq_main_v5 : after ops V (main_v5 : DevRef τ sig)
    = subf (after ops V (main_arg0 : DevRef τ sig)) (after ops V (main_v4 : DevRef τ sig)) :=
  at_binary numbered 7 (a := main_arg0) (b := main_v4) (y := main_v5) rfl (by decide) (by decide) rfl V

theorem eq_main_v6 : after ops V (main_v6 : DevRef τ sig)
    = Host.dotGeneral dot_S256x512x256_S256x512x256_S256x256x256_1_1_2_2_0_0 none
        (after ops V (main_v5 : DevRef τ sig)) (after ops V (main_v5 : DevRef τ sig)) :=
  at_binary numbered 8 (a := main_v5) (b := main_v5) (y := main_v6) rfl (by decide) (by decide) rfl V

theorem eq_main_cst_1 : after ops V (main_cst_1 : DevRef τ sig) = constant S_ .f32 0x43FF8000#32 :=
  at_nullary numbered 9 (y := main_cst_1) rfl rfl V

theorem eq_main_v7 : after ops V (main_v7 : DevRef τ sig)
    = broadcastInDim S256x256x256 ![] bcast_S_S256x256x256 (after ops V (main_cst_1 : DevRef τ sig)) :=
  at_unary numbered 10 (x := main_cst_1) (y := main_v7) rfl (by decide) rfl V

theorem eq_main_v8 : after ops V (main_v8 : DevRef τ sig)
    = Host.divf (after ops V (main_v6 : DevRef τ sig)) (after ops V (main_v7 : DevRef τ sig)) :=
  at_binary numbered 11 (a := main_v6) (b := main_v7) (y := main_v8) rfl (by decide) (by decide) rfl V

/-! ## The trace: the covariance masked to its diagonal, summed -/

theorem eq_main_call0_v0 : after ops V (main_call0_v0 : DevRef τ sig) = iotaInDim S256x256 32 0 :=
  at_nullary numbered 12 (y := main_call0_v0) rfl rfl V

theorem eq_main_call0_v1 : after ops V (main_call0_v1 : DevRef τ sig) = iotaInDim S256x256 32 1 :=
  at_nullary numbered 13 (y := main_call0_v1) rfl rfl V

theorem eq_main_call0_c : after ops V (main_call0_c : DevRef τ sig) = constantI S_ 32 0#32 :=
  at_nullary numbered 14 (y := main_call0_c) rfl rfl V

theorem eq_main_call0_v2 : after ops V (main_call0_v2 : DevRef τ sig)
    = broadcastInDim S256x256 ![] bcast_S_S256x256 (after ops V (main_call0_c : DevRef τ sig)) :=
  at_unary numbered 15 (x := main_call0_c) (y := main_call0_v2) rfl (by decide) rfl V

theorem eq_main_call0_v3 : after ops V (main_call0_v3 : DevRef τ sig)
    = addi (after ops V (main_call0_v0 : DevRef τ sig)) (after ops V (main_call0_v2 : DevRef τ sig)) :=
  at_binary numbered 16 (a := main_call0_v0) (b := main_call0_v2) (y := main_call0_v3) rfl (by decide) (by decide) rfl V

theorem eq_main_call0_v4 : after ops V (main_call0_v4 : DevRef τ sig)
    = cmpi .eq (after ops V (main_call0_v3 : DevRef τ sig)) (after ops V (main_call0_v1 : DevRef τ sig)) :=
  at_binary numbered 17 (a := main_call0_v3) (b := main_call0_v1) (y := main_call0_v4) rfl (by decide) (by decide) rfl V

theorem eq_main_call0_cst : after ops V (main_call0_cst : DevRef τ sig) = constant S_ .f32 0x00000000#32 :=
  at_nullary numbered 18 (y := main_call0_cst) rfl rfl V

theorem eq_main_call0_v5 : after ops V (main_call0_v5 : DevRef τ sig)
    = broadcastInDim S256x256x256 ![] bcast_S_S256x256x256 (after ops V (main_call0_cst : DevRef τ sig)) :=
  at_unary numbered 19 (x := main_call0_cst) (y := main_call0_v5) rfl (by decide) rfl V

theorem eq_main_call0_call0_v0 : after ops V (main_call0_call0_v0 : DevRef τ sig)
    = broadcastInDim S256x256x256 ![1, 2] bcast_S256x256_S256x256x256_1_2 (after ops V (main_call0_v4 : DevRef τ sig)) :=
  at_unary numbered 20 (x := main_call0_v4) (y := main_call0_call0_v0) rfl (by decide) rfl V

theorem eq_main_call0_v6 : after ops V (main_call0_v6 : DevRef τ sig)
    = select (after ops V (main_call0_call0_v0 : DevRef τ sig)) (after ops V (main_v8 : DevRef τ sig))
        (after ops V (main_call0_v5 : DevRef τ sig)) :=
  at_ternary numbered 21 (c := main_call0_call0_v0) (a := main_v8) (b := main_call0_v5) (y := main_call0_v6) rfl
    (by decide) (by decide) (by decide) rfl V

theorem eq_main_call0_cst_0 : after ops V (main_call0_cst_0 : DevRef τ sig) = constant S_ .f32 0x00000000#32 :=
  at_nullary numbered 22 (y := main_call0_cst_0) rfl rfl V

theorem eq_main_v9 : after ops V (main_v9 : DevRef τ sig)
    = Host.reduceAdd (after ops V (main_call0_v6 : DevRef τ sig)) (after ops V (main_call0_cst_0 : DevRef τ sig))
        reducesTo_S256x256x256_S256_d1_2 h_S_ :=
  at_binary numbered 23 (a := main_call0_v6) (b := main_call0_cst_0) (y := main_v9) rfl (by decide) (by decide) rfl V

/-! ## The covariance over its trace; the identity matrix -/

theorem eq_main_v10 : after ops V (main_v10 : DevRef τ sig)
    = broadcastInDim S256x1x1 ![0] bcast_S256_S256x1x1_0 (after ops V (main_v9 : DevRef τ sig)) :=
  at_unary numbered 24 (x := main_v9) (y := main_v10) rfl (by decide) rfl V

theorem eq_main_v11 : after ops V (main_v11 : DevRef τ sig)
    = broadcastInDim S256x256x256 ![0, 1, 2] bcast_S256x1x1_S256x256x256_0_1_2 (after ops V (main_v10 : DevRef τ sig)) :=
  at_unary numbered 25 (x := main_v10) (y := main_v11) rfl (by decide) rfl V

theorem eq_main_v12 : after ops V (main_v12 : DevRef τ sig)
    = Host.divf (after ops V (main_v8 : DevRef τ sig)) (after ops V (main_v11 : DevRef τ sig)) :=
  at_binary numbered 26 (a := main_v8) (b := main_v11) (y := main_v12) rfl (by decide) (by decide) rfl V

theorem eq_main_v13 : after ops V (main_v13 : DevRef τ sig) = iotaInDim S256x256 32 0 :=
  at_nullary numbered 27 (y := main_v13) rfl rfl V

theorem eq_main_v14 : after ops V (main_v14 : DevRef τ sig) = iotaInDim S256x256 32 1 :=
  at_nullary numbered 28 (y := main_v14) rfl rfl V

theorem eq_main_c : after ops V (main_c : DevRef τ sig) = constantI S_ 32 0#32 :=
  at_nullary numbered 29 (y := main_c) rfl rfl V

theorem eq_main_v15 : after ops V (main_v15 : DevRef τ sig)
    = broadcastInDim S256x256 ![] bcast_S_S256x256 (after ops V (main_c : DevRef τ sig)) :=
  at_unary numbered 30 (x := main_c) (y := main_v15) rfl (by decide) rfl V

theorem eq_main_v16 : after ops V (main_v16 : DevRef τ sig)
    = addi (after ops V (main_v13 : DevRef τ sig)) (after ops V (main_v15 : DevRef τ sig)) :=
  at_binary numbered 31 (a := main_v13) (b := main_v15) (y := main_v16) rfl (by decide) (by decide) rfl V

theorem eq_main_v17 : after ops V (main_v17 : DevRef τ sig)
    = cmpi .eq (after ops V (main_v16 : DevRef τ sig)) (after ops V (main_v14 : DevRef τ sig)) :=
  at_binary numbered 32 (a := main_v16) (b := main_v14) (y := main_v17) rfl (by decide) (by decide) rfl V

theorem eq_main_v18 : after ops V (main_v18 : DevRef τ sig)
    = uitofp .f32 (after ops V (main_v17 : DevRef τ sig)) :=
  at_unary numbered 33 (x := main_v17) (y := main_v18) rfl (by decide) rfl V

theorem eq_main_v19 : after ops V (main_v19 : DevRef τ sig)
    = broadcastInDim S256x256x256 ![1, 2] bcast_S256x256_S256x256x256_1_2 (after ops V (main_v18 : DevRef τ sig)) :=
  at_unary numbered 34 (x := main_v18) (y := main_v19) rfl (by decide) rfl V

/-! ## The first step, from the identity -/

theorem eq_main_v20 : after ops V (main_v20 : DevRef τ sig)
    = Host.dotGeneral dot_S256x256x256_S256x256x256_S256x256x256_2_1_1_2_0_0 none
        (after ops V (main_v19 : DevRef τ sig)) (after ops V (main_v19 : DevRef τ sig)) :=
  at_binary numbered 35 (a := main_v19) (b := main_v19) (y := main_v20) rfl (by decide) (by decide) rfl V

theorem eq_main_v21 : after ops V (main_v21 : DevRef τ sig)
    = Host.dotGeneral dot_S256x256x256_S256x256x256_S256x256x256_2_1_1_2_0_0 none
        (after ops V (main_v20 : DevRef τ sig)) (after ops V (main_v19 : DevRef τ sig)) :=
  at_binary numbered 36 (a := main_v20) (b := main_v19) (y := main_v21) rfl (by decide) (by decide) rfl V

theorem eq_main_cst_2 : after ops V (main_cst_2 : DevRef τ sig) = constant S_ .f32 0x3FC00000#32 :=
  at_nullary numbered 37 (y := main_cst_2) rfl rfl V

theorem eq_main_v22 : after ops V (main_v22 : DevRef τ sig)
    = broadcastInDim S256x256x256 ![] bcast_S_S256x256x256 (after ops V (main_cst_2 : DevRef τ sig)) :=
  at_unary numbered 38 (x := main_cst_2) (y := main_v22) rfl (by decide) rfl V

theorem eq_main_v23 : after ops V (main_v23 : DevRef τ sig)
    = mulf (after ops V (main_v22 : DevRef τ sig)) (after ops V (main_v19 : DevRef τ sig)) :=
  at_binary numbered 39 (a := main_v22) (b := main_v19) (y := main_v23) rfl (by decide) (by decide) rfl V

theorem eq_main_v24 : after ops V (main_v24 : DevRef τ sig)
    = Host.dotGeneral dot_S256x256x256_S256x256x256_S256x256x256_2_1_1_2_0_0 none
        (after ops V (main_v21 : DevRef τ sig)) (after ops V (main_v12 : DevRef τ sig)) :=
  at_binary numbered 40 (a := main_v21) (b := main_v12) (y := main_v24) rfl (by decide) (by decide) rfl V

theorem eq_main_cst_3 : after ops V (main_cst_3 : DevRef τ sig) = constant S_ .f32 0x3F000000#32 :=
  at_nullary numbered 41 (y := main_cst_3) rfl rfl V

theorem eq_main_v25 : after ops V (main_v25 : DevRef τ sig)
    = broadcastInDim S256x256x256 ![] bcast_S_S256x256x256 (after ops V (main_cst_3 : DevRef τ sig)) :=
  at_unary numbered 42 (x := main_cst_3) (y := main_v25) rfl (by decide) rfl V

theorem eq_main_v26 : after ops V (main_v26 : DevRef τ sig)
    = mulf (after ops V (main_v25 : DevRef τ sig)) (after ops V (main_v24 : DevRef τ sig)) :=
  at_binary numbered 43 (a := main_v25) (b := main_v24) (y := main_v26) rfl (by decide) (by decide) rfl V

theorem eq_main_v27 : after ops V (main_v27 : DevRef τ sig)
    = subf (after ops V (main_v23 : DevRef τ sig)) (after ops V (main_v26 : DevRef τ sig)) :=
  at_binary numbered 44 (a := main_v23) (b := main_v26) (y := main_v27) rfl (by decide) (by decide) rfl V

/-! ## The second step -/

theorem eq_main_v28 : after ops V (main_v28 : DevRef τ sig)
    = Host.dotGeneral dot_S256x256x256_S256x256x256_S256x256x256_2_1_1_2_0_0 none
        (after ops V (main_v27 : DevRef τ sig)) (after ops V (main_v27 : DevRef τ sig)) :=
  at_binary numbered 45 (a := main_v27) (b := main_v27) (y := main_v28) rfl (by decide) (by decide) rfl V

theorem eq_main_v29 : after ops V (main_v29 : DevRef τ sig)
    = Host.dotGeneral dot_S256x256x256_S256x256x256_S256x256x256_2_1_1_2_0_0 none
        (after ops V (main_v28 : DevRef τ sig)) (after ops V (main_v27 : DevRef τ sig)) :=
  at_binary numbered 46 (a := main_v28) (b := main_v27) (y := main_v29) rfl (by decide) (by decide) rfl V

theorem eq_main_cst_4 : after ops V (main_cst_4 : DevRef τ sig) = constant S_ .f32 0x3FC00000#32 :=
  at_nullary numbered 47 (y := main_cst_4) rfl rfl V

theorem eq_main_v30 : after ops V (main_v30 : DevRef τ sig)
    = broadcastInDim S256x256x256 ![] bcast_S_S256x256x256 (after ops V (main_cst_4 : DevRef τ sig)) :=
  at_unary numbered 48 (x := main_cst_4) (y := main_v30) rfl (by decide) rfl V

theorem eq_main_v31 : after ops V (main_v31 : DevRef τ sig)
    = mulf (after ops V (main_v30 : DevRef τ sig)) (after ops V (main_v27 : DevRef τ sig)) :=
  at_binary numbered 49 (a := main_v30) (b := main_v27) (y := main_v31) rfl (by decide) (by decide) rfl V

theorem eq_main_v32 : after ops V (main_v32 : DevRef τ sig)
    = Host.dotGeneral dot_S256x256x256_S256x256x256_S256x256x256_2_1_1_2_0_0 none
        (after ops V (main_v29 : DevRef τ sig)) (after ops V (main_v12 : DevRef τ sig)) :=
  at_binary numbered 50 (a := main_v29) (b := main_v12) (y := main_v32) rfl (by decide) (by decide) rfl V

theorem eq_main_cst_5 : after ops V (main_cst_5 : DevRef τ sig) = constant S_ .f32 0x3F000000#32 :=
  at_nullary numbered 51 (y := main_cst_5) rfl rfl V

theorem eq_main_v33 : after ops V (main_v33 : DevRef τ sig)
    = broadcastInDim S256x256x256 ![] bcast_S_S256x256x256 (after ops V (main_cst_5 : DevRef τ sig)) :=
  at_unary numbered 52 (x := main_cst_5) (y := main_v33) rfl (by decide) rfl V

theorem eq_main_v34 : after ops V (main_v34 : DevRef τ sig)
    = mulf (after ops V (main_v33 : DevRef τ sig)) (after ops V (main_v32 : DevRef τ sig)) :=
  at_binary numbered 53 (a := main_v33) (b := main_v32) (y := main_v34) rfl (by decide) (by decide) rfl V

theorem eq_main_v35 : after ops V (main_v35 : DevRef τ sig)
    = subf (after ops V (main_v31 : DevRef τ sig)) (after ops V (main_v34 : DevRef τ sig)) :=
  at_binary numbered 54 (a := main_v31) (b := main_v34) (y := main_v35) rfl (by decide) (by decide) rfl V

/-! ## The third step -/

theorem eq_main_v36 : after ops V (main_v36 : DevRef τ sig)
    = Host.dotGeneral dot_S256x256x256_S256x256x256_S256x256x256_2_1_1_2_0_0 none
        (after ops V (main_v35 : DevRef τ sig)) (after ops V (main_v35 : DevRef τ sig)) :=
  at_binary numbered 55 (a := main_v35) (b := main_v35) (y := main_v36) rfl (by decide) (by decide) rfl V

theorem eq_main_v37 : after ops V (main_v37 : DevRef τ sig)
    = Host.dotGeneral dot_S256x256x256_S256x256x256_S256x256x256_2_1_1_2_0_0 none
        (after ops V (main_v36 : DevRef τ sig)) (after ops V (main_v35 : DevRef τ sig)) :=
  at_binary numbered 56 (a := main_v36) (b := main_v35) (y := main_v37) rfl (by decide) (by decide) rfl V

theorem eq_main_cst_6 : after ops V (main_cst_6 : DevRef τ sig) = constant S_ .f32 0x3FC00000#32 :=
  at_nullary numbered 57 (y := main_cst_6) rfl rfl V

theorem eq_main_v38 : after ops V (main_v38 : DevRef τ sig)
    = broadcastInDim S256x256x256 ![] bcast_S_S256x256x256 (after ops V (main_cst_6 : DevRef τ sig)) :=
  at_unary numbered 58 (x := main_cst_6) (y := main_v38) rfl (by decide) rfl V

theorem eq_main_v39 : after ops V (main_v39 : DevRef τ sig)
    = mulf (after ops V (main_v38 : DevRef τ sig)) (after ops V (main_v35 : DevRef τ sig)) :=
  at_binary numbered 59 (a := main_v38) (b := main_v35) (y := main_v39) rfl (by decide) (by decide) rfl V

theorem eq_main_v40 : after ops V (main_v40 : DevRef τ sig)
    = Host.dotGeneral dot_S256x256x256_S256x256x256_S256x256x256_2_1_1_2_0_0 none
        (after ops V (main_v37 : DevRef τ sig)) (after ops V (main_v12 : DevRef τ sig)) :=
  at_binary numbered 60 (a := main_v37) (b := main_v12) (y := main_v40) rfl (by decide) (by decide) rfl V

theorem eq_main_cst_7 : after ops V (main_cst_7 : DevRef τ sig) = constant S_ .f32 0x3F000000#32 :=
  at_nullary numbered 61 (y := main_cst_7) rfl rfl V

theorem eq_main_v41 : after ops V (main_v41 : DevRef τ sig)
    = broadcastInDim S256x256x256 ![] bcast_S_S256x256x256 (after ops V (main_cst_7 : DevRef τ sig)) :=
  at_unary numbered 62 (x := main_cst_7) (y := main_v41) rfl (by decide) rfl V

theorem eq_main_v42 : after ops V (main_v42 : DevRef τ sig)
    = mulf (after ops V (main_v41 : DevRef τ sig)) (after ops V (main_v40 : DevRef τ sig)) :=
  at_binary numbered 63 (a := main_v41) (b := main_v40) (y := main_v42) rfl (by decide) (by decide) rfl V

theorem eq_main_v43 : after ops V (main_v43 : DevRef τ sig)
    = subf (after ops V (main_v39 : DevRef τ sig)) (after ops V (main_v42 : DevRef τ sig)) :=
  at_binary numbered 64 (a := main_v39) (b := main_v42) (y := main_v43) rfl (by decide) (by decide) rfl V

/-! ## The fourth step -/

theorem eq_main_v44 : after ops V (main_v44 : DevRef τ sig)
    = Host.dotGeneral dot_S256x256x256_S256x256x256_S256x256x256_2_1_1_2_0_0 none
        (after ops V (main_v43 : DevRef τ sig)) (after ops V (main_v43 : DevRef τ sig)) :=
  at_binary numbered 65 (a := main_v43) (b := main_v43) (y := main_v44) rfl (by decide) (by decide) rfl V

theorem eq_main_v45 : after ops V (main_v45 : DevRef τ sig)
    = Host.dotGeneral dot_S256x256x256_S256x256x256_S256x256x256_2_1_1_2_0_0 none
        (after ops V (main_v44 : DevRef τ sig)) (after ops V (main_v43 : DevRef τ sig)) :=
  at_binary numbered 66 (a := main_v44) (b := main_v43) (y := main_v45) rfl (by decide) (by decide) rfl V

theorem eq_main_cst_8 : after ops V (main_cst_8 : DevRef τ sig) = constant S_ .f32 0x3FC00000#32 :=
  at_nullary numbered 67 (y := main_cst_8) rfl rfl V

theorem eq_main_v46 : after ops V (main_v46 : DevRef τ sig)
    = broadcastInDim S256x256x256 ![] bcast_S_S256x256x256 (after ops V (main_cst_8 : DevRef τ sig)) :=
  at_unary numbered 68 (x := main_cst_8) (y := main_v46) rfl (by decide) rfl V

theorem eq_main_v47 : after ops V (main_v47 : DevRef τ sig)
    = mulf (after ops V (main_v46 : DevRef τ sig)) (after ops V (main_v43 : DevRef τ sig)) :=
  at_binary numbered 69 (a := main_v46) (b := main_v43) (y := main_v47) rfl (by decide) (by decide) rfl V

theorem eq_main_v48 : after ops V (main_v48 : DevRef τ sig)
    = Host.dotGeneral dot_S256x256x256_S256x256x256_S256x256x256_2_1_1_2_0_0 none
        (after ops V (main_v45 : DevRef τ sig)) (after ops V (main_v12 : DevRef τ sig)) :=
  at_binary numbered 70 (a := main_v45) (b := main_v12) (y := main_v48) rfl (by decide) (by decide) rfl V

theorem eq_main_cst_9 : after ops V (main_cst_9 : DevRef τ sig) = constant S_ .f32 0x3F000000#32 :=
  at_nullary numbered 71 (y := main_cst_9) rfl rfl V

theorem eq_main_v49 : after ops V (main_v49 : DevRef τ sig)
    = broadcastInDim S256x256x256 ![] bcast_S_S256x256x256 (after ops V (main_cst_9 : DevRef τ sig)) :=
  at_unary numbered 72 (x := main_cst_9) (y := main_v49) rfl (by decide) rfl V

theorem eq_main_v50 : after ops V (main_v50 : DevRef τ sig)
    = mulf (after ops V (main_v49 : DevRef τ sig)) (after ops V (main_v48 : DevRef τ sig)) :=
  at_binary numbered 73 (a := main_v49) (b := main_v48) (y := main_v50) rfl (by decide) (by decide) rfl V

theorem eq_main_v51 : after ops V (main_v51 : DevRef τ sig)
    = subf (after ops V (main_v47 : DevRef τ sig)) (after ops V (main_v50 : DevRef τ sig)) :=
  at_binary numbered 74 (a := main_v47) (b := main_v50) (y := main_v51) rfl (by decide) (by decide) rfl V

/-! ## The scale by the square root of the trace, and the result -/

theorem eq_main_v52 : after ops V (main_v52 : DevRef τ sig) = Host.sqrt (after ops V (main_v10 : DevRef τ sig)) :=
  at_unary numbered 75 (x := main_v10) (y := main_v52) rfl (by decide) rfl V

theorem eq_main_v53 : after ops V (main_v53 : DevRef τ sig)
    = broadcastInDim S256x256x256 ![0, 1, 2] bcast_S256x1x1_S256x256x256_0_1_2 (after ops V (main_v52 : DevRef τ sig)) :=
  at_unary numbered 76 (x := main_v52) (y := main_v53) rfl (by decide) rfl V

theorem eq_main_v54 : after ops V (main_v54 : DevRef τ sig)
    = Host.divf (after ops V (main_v51 : DevRef τ sig)) (after ops V (main_v53 : DevRef τ sig)) :=
  at_binary numbered 77 (a := main_v51) (b := main_v53) (y := main_v54) rfl (by decide) (by decide) rfl V

theorem eq_main_v55 : after ops V (main_v55 : DevRef τ sig)
    = Host.dotGeneral dot_S256x512x256_S256x256x256_S256x512x256_2_1_1_2_0_0 none
        (after ops V (main_v5 : DevRef τ sig)) (after ops V (main_v54 : DevRef τ sig)) :=
  at_binary numbered 78 (a := main_v5) (b := main_v54) (y := main_v55) rfl (by decide) (by decide) rfl V

end Cert.ReferenceIdeal.RefRun

end
-- ==== Proof.RefDots.lean ====
/-
  The reference's batched products, broadcasts and row sum read at an index, at its literal shapes, over the extended
  reals; and one Newton–Schulz step of the reference read at an index.

  A [256, 512, 256] array is indexed (n, m, d): batch entry, row, column; a [256, 256, 256] array (n, i, j). Nothing here
  mentions the program's buffers: each lemma is about the pure operations the program's lines apply.
-/
import proofs.«116937_j43765716746255_2_alg».proof.Proof.Gen.ReferenceIdeal
import proofs.«116937_j43765716746255_2_alg».proof.Proof.Spec
import Idealize.ShloMosaic.PureOps.Ideal.Laws
import Idealize.ShloMosaic.Lib.ValueIdx
import Idealize.ShloMosaic.Lib.ValueLayout

noncomputable section

namespace Cert.ReferenceIdeal.RefRun

open Cert.ReferenceIdeal Cert.ReferenceIdeal.Gen Idealize.ShloMosaic Idealize.ShloMosaic.ValueIdx

/-! ## The three batched products at an index

Each has one batch axis (axis 0 of both operands and of the result) and one contracted axis. At the result index
(n, i, j) the product is the sum over the contracted coordinate q of the left operand times the right operand, both at
batch entry n, with q on the contracted axis of each. -/

/-- xnᵀ·xn at (n, d, e): the rows are contracted. -/
theorem gram_apply (l r : FVec Ideal S256x512x256 .f32) (n d e : Fin 256) :
    Host.dotGeneral dot_S256x512x256_S256x512x256_S256x256x256_1_1_2_2_0_0 none l r (ix3 n d e)
      = ∑ q : Fin 512, l (ix3 n q d) * r (ix3 n q e) := by
  refine (Ideal.dotGeneral_apply _ none .single l r (ix3 n d e)).trans ?_
  rw [← Equiv.sum_comp (contrEquiv1 dot_S256x512x256_S256x512x256_S256x256x256_1_1_2_2_0_0 512 rfl rfl).symm]
  refine Finset.sum_congr rfl fun q _ => ?_
  congr 2
  · funext a
    match a with
    | ⟨0, _⟩ => exact Fin.ext rfl
    | ⟨1, _⟩ =>
      refine Fin.ext ?_
      have h1 := DotDims.lhsIdx_val_of_single dot_S256x512x256_S256x512x256_S256x256x256_1_1_2_2_0_0 (cl := (1 : Fin 3)) rfl (ix3 n d e)
        ((contrEquiv1 dot_S256x512x256_S256x512x256_S256x256x256_1_1_2_2_0_0 512 rfl rfl).symm q)
      have h2 := contrEquiv1_symm_val dot_S256x512x256_S256x512x256_S256x256x256_1_1_2_2_0_0 512 rfl rfl q
      exact h1.trans h2
    | ⟨2, _⟩ => exact Fin.ext rfl
  · funext a
    match a with
    | ⟨0, _⟩ => exact Fin.ext rfl
    | ⟨1, _⟩ =>
      refine Fin.ext ?_
      have h1 := DotDims.rhsIdx_val_of_single dot_S256x512x256_S256x512x256_S256x256x256_1_1_2_2_0_0 (cr := (1 : Fin 3)) rfl (ix3 n d e)
        ((contrEquiv1 dot_S256x512x256_S256x512x256_S256x256x256_1_1_2_2_0_0 512 rfl rfl).symm q)
      have h2 := contrEquiv1_symm_val dot_S256x512x256_S256x512x256_S256x256x256_1_1_2_2_0_0 512 rfl rfl q
      exact h1.trans h2
    | ⟨2, _⟩ => exact Fin.ext rfl

/-- P·Q at (n, i, j): the columns of P against the rows of Q. -/
theorem mm_apply (l r : FVec Ideal S256x256x256 .f32) (n i j : Fin 256) :
    Host.dotGeneral dot_S256x256x256_S256x256x256_S256x256x256_2_1_1_2_0_0 none l r (ix3 n i j)
      = ∑ q : Fin 256, l (ix3 n i q) * r (ix3 n q j) := by
  refine (Ideal.dotGeneral_apply _ none .single l r (ix3 n i j)).trans ?_
  rw [← Equiv.sum_comp (contrEquiv1 dot_S256x256x256_S256x256x256_S256x256x256_2_1_1_2_0_0 256 rfl rfl).symm]
  refine Finset.sum_congr rfl fun q _ => ?_
  congr 2
  · funext a
    match a with
    | ⟨0, _⟩ => exact Fin.ext rfl
    | ⟨1, _⟩ => exact Fin.ext rfl
    | ⟨2, _⟩ =>
      refine Fin.ext ?_
      have h1 := DotDims.lhsIdx_val_of_single dot_S256x256x256_S256x256x256_S256x256x256_2_1_1_2_0_0 (cl := (2 : Fin 3)) rfl (ix3 n i j)
        ((contrEquiv1 dot_S256x256x256_S256x256x256_S256x256x256_2_1_1_2_0_0 256 rfl rfl).symm q)
      have h2 := contrEquiv1_symm_val dot_S256x256x256_S256x256x256_S256x256x256_2_1_1_2_0_0 256 rfl rfl q
      exact h1.trans h2
  · funext a
    match a with
    | ⟨0, _⟩ => exact Fin.ext rfl
    | ⟨1, _⟩ =>
      refine Fin.ext ?_
      have h1 := DotDims.rhsIdx_val_of_single dot_S256x256x256_S256x256x256_S256x256x256_2_1_1_2_0_0 (cr := (1 : Fin 3)) rfl (ix3 n i j)
        ((contrEquiv1 dot_S256x256x256_S256x256x256_S256x256x256_2_1_1_2_0_0 256 rfl rfl).symm q)
      have h2 := contrEquiv1_symm_val dot_S256x256x256_S256x256x256_S256x256x256_2_1_1_2_0_0 256 rfl rfl q
      exact h1.trans h2
    | ⟨2, _⟩ => exact Fin.ext rfl

/-- xn·W at (n, m, e): the columns of xn against the rows of W. -/
theorem apply_apply (l : FVec Ideal S256x512x256 .f32) (r : FVec Ideal S256x256x256 .f32) (n : Fin 256) (m : Fin 512) (e : Fin 256) :
    Host.dotGeneral dot_S256x512x256_S256x256x256_S256x512x256_2_1_1_2_0_0 none l r (ix3 n m e)
      = ∑ q : Fin 256, l (ix3 n m q) * r (ix3 n q e) := by
  refine (Ideal.dotGeneral_apply _ none .single l r (ix3 n m e)).trans ?_
  rw [← Equiv.sum_comp (contrEquiv1 dot_S256x512x256_S256x256x256_S256x512x256_2_1_1_2_0_0 256 rfl rfl).symm]
  refine Finset.sum_congr rfl fun q _ => ?_
  congr 2
  · funext a
    match a with
    | ⟨0, _⟩ => exact Fin.ext rfl
    | ⟨1, _⟩ => exact Fin.ext rfl
    | ⟨2, _⟩ =>
      refine Fin.ext ?_
      have h1 := DotDims.lhsIdx_val_of_single dot_S256x512x256_S256x256x256_S256x512x256_2_1_1_2_0_0 (cl := (2 : Fin 3)) rfl (ix3 n m e)
        ((contrEquiv1 dot_S256x512x256_S256x256x256_S256x512x256_2_1_1_2_0_0 256 rfl rfl).symm q)
      have h2 := contrEquiv1_symm_val dot_S256x512x256_S256x256x256_S256x512x256_2_1_1_2_0_0 256 rfl rfl q
      exact h1.trans h2
  · funext a
    match a with
    | ⟨0, _⟩ => exact Fin.ext rfl
    | ⟨1, _⟩ =>
      refine Fin.ext ?_
      have h1 := DotDims.rhsIdx_val_of_single dot_S256x512x256_S256x256x256_S256x512x256_2_1_1_2_0_0 (cr := (1 : Fin 3)) rfl (ix3 n m e)
        ((contrEquiv1 dot_S256x512x256_S256x256x256_S256x512x256_2_1_1_2_0_0 256 rfl rfl).symm q)
      have h2 := contrEquiv1_symm_val dot_S256x512x256_S256x256x256_S256x512x256_2_1_1_2_0_0 256 rfl rfl q
      exact h1.trans h2
    | ⟨2, _⟩ => exact Fin.ext rfl

/-! ## Broadcasts and the sum over the rows at an index, at the reference's shapes

A [256, 512, 256] array is indexed (n, m, d): batch entry, row, column. Each lemma says which entry of the operand an
entry of the result is. -/

section Layout
variable {α : Type}

/-- A scalar spread over any shape: every entry is the scalar. -/
theorem bcast_scalar_apply {t : Shape} (h : S_.BroadcastsInDim t (![] : Fin 0 → Fin t.rank)) (x : S_.Idx → α) (j : t.Idx) :
    broadcastInDim t ![] h x j = x ix0 :=
  broadcastInDim_apply ![] h x j ix0 fun a => a.elim0

/-- [256, 256] placed on axes 0 and 2 of [256, 1, 256] (the sum over the rows, its axis kept). -/
theorem bcast_256x256_256x1x256 (x : S256x256.Idx → α) (n : Fin 256) (z : Fin 1) (d : Fin 256) :
    broadcastInDim S256x1x256 ![0, 2] bcast_S256x256_S256x1x256_0_2 x (ix3 n z d) = x (ix2 n d) := by
  refine broadcastInDim_apply ![0, 2] _ x (ix3 n z d) (ix2 n d) fun a => ?_
  match a with
  | ⟨0, _⟩ => rfl
  | ⟨1, _⟩ => rfl

/-- [256, 1, 256] spread over the 512 rows. -/
theorem bcast_256x1x256_rows (x : S256x1x256.Idx → α) (n : Fin 256) (m : Fin 512) (d : Fin 256) :
    broadcastInDim S256x512x256 ![0, 1, 2] bcast_S256x1x256_S256x512x256_0_1_2 x (ix3 n m d) = x (ix3 n (0 : Fin 1) d) := by
  refine broadcastInDim_apply ![0, 1, 2] _ x (ix3 n m d) (ix3 n (0 : Fin 1) d) fun a => ?_
  match a with
  | ⟨0, _⟩ => rfl
  | ⟨1, _⟩ => rfl
  | ⟨2, _⟩ => rfl

/-- [256] placed on axis 0 of [256, 1, 1]. -/
theorem bcast_256_256x1x1 (x : S256.Idx → α) (n : Fin 256) (z z' : Fin 1) :
    broadcastInDim S256x1x1 ![0] bcast_S256_S256x1x1_0 x (ix3 n z z') = x (ix1 n) := by
  refine broadcastInDim_apply ![0] _ x (ix3 n z z') (ix1 n) fun a => ?_
  match a with
  | ⟨0, _⟩ => rfl

/-- [256, 1, 1] spread over a [256, 256, 256] block. -/
theorem bcast_256x1x1_block (x : S256x1x1.Idx → α) (n i j : Fin 256) :
    broadcastInDim S256x256x256 ![0, 1, 2] bcast_S256x1x1_S256x256x256_0_1_2 x (ix3 n i j)
      = x (ix3 n (0 : Fin 1) (0 : Fin 1)) := by
  refine broadcastInDim_apply ![0, 1, 2] _ x (ix3 n i j) (ix3 n (0 : Fin 1) (0 : Fin 1)) fun a => ?_
  match a with
  | ⟨0, _⟩ => rfl
  | ⟨1, _⟩ => rfl
  | ⟨2, _⟩ => rfl

end Layout

/-- The sum over the rows of a [256, 512, 256] array from the zero initial value, at (n, d). -/
theorem rowSum_apply (x : FVec Ideal S256x512x256 .f32) (n d : Fin 256) :
    Host.reduceAdd x (constant (F := Ideal) S_ .f32 0x00000000#32) reducesTo_S256x512x256_S256x256_d1 h_S_ (ix2 n d)
      = ∑ m : Fin 512, x (ix3 n m d) := by
  have h : S256x512x256.Reduces [1] S256x256 := by decide
  refine (Ideal.hostReduceAdd_single reducesTo_S256x512x256_S256x256_d1 h x _ (ix2 n d)).trans ?_
  show Ideal.ofBits .f32 0x00000000#32 + ∑ m : Fin 512, x (h.lift (ix2 n d) m) = _
  rw [Ideal.ofBits_zero_f32, zero_add]
  refine Finset.sum_congr rfl fun m _ => congrArg x ?_
  funext a
  match a with
  | ⟨0, _⟩ => exact Fin.ext rfl
  | ⟨1, _⟩ => exact Fin.ext rfl
  | ⟨2, _⟩ => exact Fin.ext rfl

/-- One Newton–Schulz step read at an index: 1.5·P − 0.5·((P·P)·P)·S over arrays whose batch entry n is the matrices Pm
    and Sm is the step of Pm against Sm. -/
theorem step_read (P S : FVec Ideal S256x256x256 .f32) (Pm Sm : Cert.Whiten.Mat 256 256) (n : Fin 256)
    (hP : ∀ i j, P (ix3 n i j) = Pm i j) (hS : ∀ i j, S (ix3 n i j) = Sm i j) (i j : Fin 256) :
    subf (mulf (broadcastInDim S256x256x256 ![] bcast_S_S256x256x256 (constant (F := Ideal) S_ .f32 0x3FC00000#32)) P)
        (mulf (broadcastInDim S256x256x256 ![] bcast_S_S256x256x256 (constant (F := Ideal) S_ .f32 0x3F000000#32))
          (Host.dotGeneral dot_S256x256x256_S256x256x256_S256x256x256_2_1_1_2_0_0 none
            (Host.dotGeneral dot_S256x256x256_S256x256x256_S256x256x256_2_1_1_2_0_0 none
              (Host.dotGeneral dot_S256x256x256_S256x256x256_S256x256x256_2_1_1_2_0_0 none P P) P) S)) (ix3 n i j)
      = Cert.Whiten.step Sm Pm i j := by
  simp only [subf_apply, mulf_apply, bcast_scalar_apply, constant_apply, mm_apply, hP, hS]
  rfl

end Cert.ReferenceIdeal.RefRun

end
-- ==== Proof.RefReadTrace.lean ====
/-
  Two of the reference's values read at an index: the trace and the identity matrix.

  jnp.trace masks the [256, 256, 256] covariance array with the diagonal of its last two axes (row counter = column
  counter, a [256, 256] mask spread over the batch axis; zero off the diagonal) and sums over both axes. At batch entry n
  that is the double sum over (d, e) of the covariance at (n, d, e) where d = e and of zero elsewhere. jnp.eye is the same
  mask converted to a float, and the reference spreads it over the batch axis.
-/
import proofs.«116937_j43765716746255_2_alg».proof.Proof.RefEqs
import proofs.«116937_j43765716746255_2_alg».proof.Proof.Spec
import Idealize.ShloMosaic.Lib.ValueIdx
import Idealize.ShloMosaic.Lib.Pipeline.Value
import Idealize.ShloMosaic.PureOps.Ideal.Laws

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx

attribute [local irreducible] after

/-- An index of a rank-3 array is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Two counters below 256 are equal as 32-bit words exactly when they are equal. -/
theorem ofNat_eq_iff (i j : Fin 256) : BitVec.ofNat 32 i.val = BitVec.ofNat 32 j.val ↔ i = j := by
  constructor
  · intro h
    have := congrArg BitVec.toNat h
    rw [BitVec.toNat_ofNat, BitVec.toNat_ofNat] at this
    have hi := i.isLt; have hj := j.isLt
    exact Fin.ext (by omega)
  · rintro rfl; rfl

/-- The diagonal mask: (row counter + 0) = column counter, at (i, j), is the bit of i = j. -/
theorem mask_apply (hb : S_.BroadcastsInDim S256x256 (![] : Fin 0 → Fin S256x256.rank)) (i j : Fin 256) :
    cmpi .eq (addi (iotaInDim S256x256 32 0) (broadcastInDim S256x256 ![] hb (constantI S_ 32 0#32))) (iotaInDim S256x256 32 1) (ix2 i j)
      = if i = j then 1#1 else 0#1 := by
  show BitVec.ofBool (BitVec.ofNat 32 i.val + 0#32 == BitVec.ofNat 32 j.val) = _
  rw [BitVec.add_zero]
  by_cases hij : i = j
  · subst hij; simp
  · have : (BitVec.ofNat 32 i.val == BitVec.ofNat 32 j.val) = false := by
      rw [beq_eq_false_iff_ne]; exact fun h => hij ((ofNat_eq_iff i j).mp h)
    rw [this, if_neg hij]; rfl

variable (V : Valuation τ sig (Elt Ideal))

/-- The final contents of the covariance buffer, as an array of extended reals. -/
abbrev cov : FVec Ideal S256x256x256 .f32 := after ops V (main_v8 : DevRef τ sig)

/-- The trace call's mask at (d, e). -/
theorem call0_v4_apply (d e : Fin 256) :
    (after ops V (main_call0_v4 : DevRef τ sig) : IVec S256x256 1) (ix2 d e) = if d = e then 1#1 else 0#1 := by
  rw [eq_main_call0_v4, eq_main_call0_v3, eq_main_call0_v0, eq_main_call0_v1, eq_main_call0_v2, eq_main_call0_c]
  exact mask_apply _ d e

/-- The masked covariance at (n, d, e). -/
theorem call0_v6_apply (n d e : Fin 256) :
    (after ops V (main_call0_v6 : DevRef τ sig) : FVec Ideal S256x256x256 .f32) (ix3 n d e)
      = if d = e then cov V (ix3 n d e) else (0 : EReal) := by
  rw [eq_main_call0_v6, eq_main_call0_call0_v0, eq_main_call0_v5, eq_main_call0_cst]
  rw [select_apply]
  rw [broadcastInDim_apply ![1, 2] bcast_S256x256_S256x256x256_1_2 _ (ix3 n d e) (ix2 d e) (fun a => by
    match a with
    | ⟨0, _⟩ => rfl
    | ⟨1, _⟩ => rfl)]
  rw [call0_v4_apply]
  by_cases hde : d = e
  · rw [if_pos hde, if_pos hde]; exact select_one _ _
  · rw [if_neg hde, if_neg hde]
    refine (select_zero _ _).trans ?_
    show Ideal.ofBits .f32 0x00000000#32 = 0
    exact Ideal.ofBits_zero_f32

/-- The reference's trace at batch entry n: the masked covariance summed over both of its matrix axes. -/
theorem v9_apply (n : Fin 256) :
    (after ops V (main_v9 : DevRef τ sig) : FVec Ideal S256 .f32) (ix1 n)
      = ∑ d : Fin 256, ∑ e : Fin 256, (if d = e then cov V (ix3 n d e) else (0 : EReal)) := by
  rw [eq_main_v9, eq_main_call0_cst_0]
  generalize hX : (after ops V (main_call0_v6 : DevRef τ sig) : FVec Ideal S256x256x256 .f32) = X
  have hXa : ∀ d e : Fin 256, X (ix3 n d e) = if d = e then cov V (ix3 n d e) else (0 : EReal) := fun d e => by
    rw [← hX]; exact call0_v6_apply V n d e
  show Ideal.hostReduceAdd reducesTo_S256x256x256_S256_d1_2 X (Ideal.ofBits .f32 0x00000000#32) (ix1 n) = _
  unfold Ideal.hostReduceAdd
  rw [Ideal.ofBits_zero_f32, zero_add, Finset.sum_filter, sum_idx3]
  have hdrop : ∀ (a b c : Fin 256), (reducesTo_S256x256x256_S256_d1_2.drop (ix3 a b c) = ix1 n) ↔ a = n := fun a b c => by
    constructor
    · intro h; exact Fin.ext (congrArg (fun k : S256.Idx => (k 0).val) h)
    · rintro rfl; funext k; match k with | ⟨0, _⟩ => exact Fin.ext rfl
  simp only [hdrop]
  rw [Finset.sum_eq_single n (fun a _ ha => by simp [ha]) (fun h => absurd (Finset.mem_univ n) h)]
  simp only [if_true, hXa]

/-- The reference's identity matrix, spread over the batch axis, at (n, i, j). -/
theorem v19_apply (n i j : Fin 256) :
    (after ops V (main_v19 : DevRef τ sig) : FVec Ideal S256x256x256 .f32) (ix3 n i j) = Cert.Whiten.eye i j := by
  rw [eq_main_v19]
  rw [broadcastInDim_apply ![1, 2] bcast_S256x256_S256x256x256_1_2 _ (ix3 n i j) (ix2 i j) (fun a => by
    match a with
    | ⟨0, _⟩ => rfl
    | ⟨1, _⟩ => rfl)]
  rw [eq_main_v18]
  show (((((after ops V (main_v17 : DevRef τ sig) : IVec S256x256 1)) (ix2 i j)).toNat : ℝ) : EReal) = _
  rw [eq_main_v17, eq_main_v16, eq_main_v13, eq_main_v14, eq_main_v15, eq_main_c, mask_apply]
  unfold Cert.Whiten.eye
  by_cases hij : i = j
  · rw [if_pos hij, if_pos hij]; simp
  · rw [if_neg hij, if_neg hij]; simp

end Cert.ReferenceIdeal.RefRun

end
-- ==== Proof.RefRead.lean ====
/-
  The reference program's result read at an index.

  With X the batch entry n of the argument as it is at launch, every buffer of the reference is read at an index over
  batch entry n as the matching matrix of the specification: the centred matrix, the covariance, its trace, the
  covariance over the trace, the four Newton–Schulz steps from the identity, the scale by the square root of the trace,
  and the product with the centred matrix. Each lemma opens one buffer's own equation and reads the operation at the
  index; the trace and the identity matrix are read in RefReadTrace.
-/
import proofs.«116937_j43765716746255_2_alg».proof.Proof.RefEqs
import proofs.«116937_j43765716746255_2_alg».proof.Proof.RefDots
import proofs.«116937_j43765716746255_2_alg».proof.Proof.RefReadTrace

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx

-- every statement below is ABOUT the fold over the 79 operations and never computes through it
attribute [local irreducible] after

section Reads

variable (V : Valuation τ sig (Elt Ideal)) (n : Fin 256)

/-- Batch entry n of the argument as it is at launch, a 512 × 256 matrix. -/
abbrev argMat : Cert.Whiten.Mat 512 256 := fun m' d => V (main_arg0 : DevRef τ sig) (ix3 n m' d)

/-! ## Centring the columns, the covariance -/

theorem arg0_apply (m : Fin 512) (d : Fin 256) :
    after ops V (main_arg0 : DevRef τ sig) (ix3 n m d) = argMat V n m d := by
  rw [arg0_kept V]

/-- The column sums. -/
theorem v0_apply (d : Fin 256) :
    after ops V (main_v0 : DevRef τ sig) (ix2 n d) = ∑ m : Fin 512, argMat V n m d := by
  refine (congrFun (eq_main_v0 V) (ix2 n d)).trans ?_
  rw [eq_main_cst V]
  refine (rowSum_apply _ n d).trans ?_
  exact Finset.sum_congr rfl fun m _ => arg0_apply V n m d

/-- The column means, their row axis kept. -/
theorem v3_apply (z : Fin 1) (d : Fin 256) :
    after ops V (main_v3 : DevRef τ sig) (ix3 n z d) = Cert.Whiten.mean (argMat V n) d := by
  refine (congrFun (eq_main_v3 V) (ix3 n z d)).trans ?_
  show Ideal.div (after ops V (main_v1 : DevRef τ sig) (ix3 n z d)) (after ops V (main_v2 : DevRef τ sig) (ix3 n z d)) = _
  rw [eq_main_v1 V, eq_main_v2 V, eq_main_cst_0 V, bcast_256x256_256x1x256, bcast_scalar_apply, v0_apply]
  rfl

/-- The column means spread over the rows. -/
theorem v4_apply (m : Fin 512) (d : Fin 256) :
    after ops V (main_v4 : DevRef τ sig) (ix3 n m d) = Cert.Whiten.mean (argMat V n) d := by
  refine (congrFun (eq_main_v4 V) (ix3 n m d)).trans ?_
  rw [bcast_256x1x256_rows, v3_apply]

/-- The centred matrix. -/
theorem v5_apply (m : Fin 512) (d : Fin 256) :
    after ops V (main_v5 : DevRef τ sig) (ix3 n m d) = Cert.Whiten.xn (argMat V n) m d := by
  refine (congrFun (eq_main_v5 V) (ix3 n m d)).trans ?_
  rw [subf_apply, arg0_apply, v4_apply]
  rfl

/-- The covariance. -/
theorem v8_apply (d e : Fin 256) :
    after ops V (main_v8 : DevRef τ sig) (ix3 n d e) = Cert.Whiten.sig (argMat V n) d e := by
  refine (congrFun (eq_main_v8 V) (ix3 n d e)).trans ?_
  show Ideal.div (after ops V (main_v6 : DevRef τ sig) (ix3 n d e)) (after ops V (main_v7 : DevRef τ sig) (ix3 n d e)) = _
  rw [eq_main_v6 V, eq_main_v7 V, eq_main_cst_1 V, gram_apply, bcast_scalar_apply]
  simp only [v5_apply V n]
  rfl

/-! ## The trace, the covariance over it -/

/-- The trace. -/
theorem v9_trR : after ops V (main_v9 : DevRef τ sig) (ix1 n) = Cert.Whiten.trR (argMat V n) := by
  rw [v9_apply V n]
  simp only [cov, v8_apply V n]
  rfl

theorem v10_apply (z z' : Fin 1) :
    after ops V (main_v10 : DevRef τ sig) (ix3 n z z') = Cert.Whiten.trR (argMat V n) := by
  refine (congrFun (eq_main_v10 V) (ix3 n z z')).trans ?_
  rw [bcast_256_256x1x1, v9_trR]

/-- The covariance over its trace. -/
theorem v12_apply (d e : Fin 256) :
    after ops V (main_v12 : DevRef τ sig) (ix3 n d e) = Cert.Whiten.snR (argMat V n) d e := by
  refine (congrFun (eq_main_v12 V) (ix3 n d e)).trans ?_
  show Ideal.div (after ops V (main_v8 : DevRef τ sig) (ix3 n d e)) (after ops V (main_v11 : DevRef τ sig) (ix3 n d e)) = _
  rw [eq_main_v11 V, bcast_256x1x1_block, v10_apply, v8_apply]
  rfl

/-! ## The four steps from the identity -/

theorem v27_apply (i j : Fin 256) :
    after ops V (main_v27 : DevRef τ sig) (ix3 n i j)
      = Cert.Whiten.step (Cert.Whiten.snR (argMat V n)) Cert.Whiten.eye i j := by
  rw [eq_main_v27 V, eq_main_v23 V, eq_main_v26 V, eq_main_v22 V, eq_main_cst_2 V, eq_main_v25 V, eq_main_cst_3 V,
    eq_main_v24 V, eq_main_v21 V, eq_main_v20 V]
  exact step_read _ _ _ _ n (v19_apply V n) (v12_apply V n) i j

theorem v35_apply (i j : Fin 256) :
    after ops V (main_v35 : DevRef τ sig) (ix3 n i j)
      = Cert.Whiten.step (Cert.Whiten.snR (argMat V n))
          (Cert.Whiten.step (Cert.Whiten.snR (argMat V n)) Cert.Whiten.eye) i j := by
  rw [eq_main_v35 V, eq_main_v31 V, eq_main_v34 V, eq_main_v30 V, eq_main_cst_4 V, eq_main_v33 V, eq_main_cst_5 V,
    eq_main_v32 V, eq_main_v29 V, eq_main_v28 V]
  exact step_read _ _ _ _ n (v27_apply V n) (v12_apply V n) i j

theorem v43_apply (i j : Fin 256) :
    after ops V (main_v43 : DevRef τ sig) (ix3 n i j)
      = Cert.Whiten.step (Cert.Whiten.snR (argMat V n))
          (Cert.Whiten.step (Cert.Whiten.snR (argMat V n))
            (Cert.Whiten.step (Cert.Whiten.snR (argMat V n)) Cert.Whiten.eye)) i j := by
  rw [eq_main_v43 V, eq_main_v39 V, eq_main_v42 V, eq_main_v38 V, eq_main_cst_6 V, eq_main_v41 V, eq_main_cst_7 V,
    eq_main_v40 V, eq_main_v37 V, eq_main_v36 V]
  exact step_read _ _ _ _ n (v35_apply V n) (v12_apply V n) i j

/-- The iterate after four steps. -/
theorem v51_apply (i j : Fin 256) :
    after ops V (main_v51 : DevRef τ sig) (ix3 n i j) = Cert.Whiten.pR (argMat V n) i j := by
  rw [eq_main_v51 V, eq_main_v47 V, eq_main_v50 V, eq_main_v46 V, eq_main_cst_8 V, eq_main_v49 V, eq_main_cst_9 V,
    eq_main_v48 V, eq_main_v45 V, eq_main_v44 V]
  exact step_read _ _ _ _ n (v43_apply V n) (v12_apply V n) i j

/-! ## The scale by the square root of the trace, and the result -/

/-- The whitening matrix. -/
theorem v54_apply (d e : Fin 256) :
    after ops V (main_v54 : DevRef τ sig) (ix3 n d e) = Cert.Whiten.wmR (argMat V n) d e := by
  refine (congrFun (eq_main_v54 V) (ix3 n d e)).trans ?_
  show Ideal.div (after ops V (main_v51 : DevRef τ sig) (ix3 n d e)) (after ops V (main_v53 : DevRef τ sig) (ix3 n d e)) = _
  rw [eq_main_v53 V, bcast_256x1x1_block, eq_main_v52 V, v51_apply]
  show Ideal.div _ (Ideal.sqrt (after ops V (main_v10 : DevRef τ sig) (ix3 n (0 : Fin 1) (0 : Fin 1)))) = _
  rw [v10_apply]
  rfl

/-- The result: the centred matrix times the whitening matrix. -/
theorem v55_apply (m : Fin 512) (e : Fin 256) :
    after ops V (main_v55 : DevRef τ sig) (ix3 n m e) = Cert.Whiten.outR (argMat V n) m e := by
  refine (congrFun (eq_main_v55 V) (ix3 n m e)).trans ?_
  rw [apply_apply]
  simp only [v5_apply V n, v54_apply V n]
  rfl

end Reads

/-- The reference's result at (n, m, e) is the whitening, by the reference's spelling, of batch entry n of the argument
    as it is at launch. -/
theorem ref_out (V : Valuation τ sig (Elt Ideal)) (n : Fin 256) (m : Fin 512) (e : Fin 256) :
    after ops V (main_v55 : DevRef τ sig) (ValueIdx.ix3 n m e)
      = Cert.Whiten.outR (fun m' d => V (main_arg0 : DevRef τ sig) (ValueIdx.ix3 n m' d)) m e :=
  v55_apply V n m e

end Cert.ReferenceIdeal.RefRun

end
-- ==== Proof.WhitenLaw.lean ====
/-
  The two spellings of the whitening agree on every real input matrix.

  With X real, the centred matrix xn is real, so the covariance entries and both traces are real, and the two traces
  are the same real t ≥ 0: the sum of all squares of xn over 511, and the sum of the diagonal of the covariance.
  Hence the two normalised covariances coincide.  The identity is a left unit of the matrix product at every
  extended-real matrix (0·a = 0 and 1·a = a hold there), so one step from the identity is 1.5·I − 0.5·S, the
  kernel's starting matrix: the two iterates coincide.  If t > 0, dividing by √t is multiplying by (√t)⁻¹ at every
  extended real.  If t = 0, every entry of xn is 0 and both results are sums of 0·_ = 0, whatever the whitening
  matrices are.
-/
import proofs.«116937_j43765716746255_2_alg».proof.Proof.Spec

noncomputable section

namespace Cert.Whiten

open Idealize.ShloMosaic

/-! ### The literals -/

theorem c512_eq : c512 = ((512 : ℝ) : EReal) := by
  simp [c512, Ideal.ofBits, Ideal.ieee, -EReal.coe_mul]; norm_num

theorem c511_eq : c511 = ((511 : ℝ) : EReal) := by
  simp [c511, Ideal.ofBits, Ideal.ieee, -EReal.coe_mul]; norm_num

/-! ### Coercion of a finite sum of reals -/

theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-! ### Real inputs give a real centred matrix -/

theorem xn_real (X : Mat 512 256) (hX : ∀ m d, ∃ r : ℝ, X m d = (r : EReal)) :
    ∃ xr : Fin 512 → Fin 256 → ℝ, ∀ m d, xn X m d = ((xr m d : ℝ) : EReal) := by
  choose x hx using hX
  refine ⟨fun m d => x m d - (∑ m' : Fin 512, x m' d) * (1 / 512), fun m d => ?_⟩
  have hmean : mean X d = (((∑ m' : Fin 512, x m' d) * (1 / 512) : ℝ) : EReal) := by
    rw [mean, c512_eq, Ideal.div_coe (by norm_num), EReal.coe_mul, coe_sum]
    simp only [hx]
  rw [xn, hmean, hx, ← EReal.coe_sub]

section
variable (X : Mat 512 256) (xr : Fin 512 → Fin 256 → ℝ) (hxn : ∀ m d, xn X m d = ((xr m d : ℝ) : EReal))
include hxn

theorem sig_real (d e : Fin 256) :
    sig X d e = (((∑ m : Fin 512, xr m d * xr m e) * (1 / 511) : ℝ) : EReal) := by
  rw [sig, c511_eq, Ideal.div_coe (by norm_num), EReal.coe_mul, coe_sum]
  simp only [hxn, EReal.coe_mul]

theorem trK_real :
    trK X = (((∑ d : Fin 256, ∑ m : Fin 512, xr m d * xr m d) * (1 / 511) : ℝ) : EReal) := by
  rw [trK, c511_eq, Ideal.div_coe (by norm_num), EReal.coe_mul, coe_sum]
  simp only [hxn, coe_sum, EReal.coe_mul]

theorem trR_real :
    trR X = (((∑ d : Fin 256, ∑ m : Fin 512, xr m d * xr m d) * (1 / 511) : ℝ) : EReal) := by
  rw [trR, Finset.sum_mul, coe_sum]
  refine Finset.sum_congr rfl fun d _ => ?_
  rw [Finset.sum_ite_eq, if_pos (Finset.mem_univ d), sig_real X xr hxn]

theorem tr_eq : trK X = trR X := by
  rw [trK_real X xr hxn, trR_real X xr hxn]

end

/-! ### The identity is a left unit of the product, at every extended-real matrix -/

theorem mm_eye (A : Mat 256 256) : mm eye A = A := by
  funext i j
  show ∑ k : Fin 256, eye i k * A k j = A i j
  rw [Finset.sum_eq_single i]
  · rw [eye, if_pos rfl, one_mul]
  · intro k _ hk
    rw [eye, if_neg (Ne.symm hk), zero_mul]
  · intro h
    exact absurd (Finset.mem_univ i) h

/-- One step from the identity, worked out: the three products with the identity drop. -/
theorem step_eye (S : Mat 256 256) : step S eye = fun i j => c15 * eye i j - c05 * S i j := by
  funext i j
  show c15 * eye i j - c05 * mm (mm (mm eye eye) eye) S i j = c15 * eye i j - c05 * S i j
  rw [mm_eye, mm_eye, mm_eye]

/-! ### Square root and reciprocal square root of a positive real -/

theorem rsqrt_pos {t : ℝ} (ht : 0 < t) : Ideal.rsqrt (t : EReal) = (((Real.sqrt t)⁻¹ : ℝ) : EReal) := by
  rw [Ideal.rsqrt_coe, if_neg (not_lt.mpr ht.le), if_neg ht.ne']

theorem sqrt_pos {t : ℝ} (ht : 0 < t) : Ideal.sqrt (t : EReal) = ((Real.sqrt t : ℝ) : EReal) := by
  rw [Ideal.sqrt_coe, if_neg (not_lt.mpr ht.le)]

/-- Dividing by the square root is multiplying by the reciprocal square root, at every extended real p. -/
theorem div_sqrt_eq {t : ℝ} (ht : 0 < t) (p : EReal) :
    Ideal.div p (Ideal.sqrt (t : EReal)) = p * Ideal.rsqrt (t : EReal) := by
  rw [sqrt_pos ht, rsqrt_pos ht, Ideal.div_coe (Real.sqrt_ne_zero'.mpr ht), one_div]

section
variable (X : Mat 512 256) (xr : Fin 512 → Fin 256 → ℝ) (hxn : ∀ m d, xn X m d = ((xr m d : ℝ) : EReal))
include hxn

theorem sn_eq : snK X = snR X := by
  funext d e
  show Ideal.div (sig X d e) (trK X) = Ideal.div (sig X d e) (trR X)
  rw [tr_eq X xr hxn]

theorem p_eq : pK X = pR X := by
  rw [pK, pR, ← sn_eq X xr hxn, step_eye]
  rfl

end

/-- A zero trace forces a zero centred matrix. -/
theorem xr_zero_of_tr_zero (xr : Fin 512 → Fin 256 → ℝ)
    (h0 : (∑ d : Fin 256, ∑ m : Fin 512, xr m d * xr m d) * (1 / 511) = 0) (m : Fin 512) (d : Fin 256) :
    xr m d = 0 := by
  have hs : (∑ d : Fin 256, ∑ m : Fin 512, xr m d * xr m d) = 0 := by
    rcases mul_eq_zero.mp h0 with h | h
    · exact h
    · norm_num at h
  have h1 := (Finset.sum_eq_zero_iff_of_nonneg
    (fun d _ => Finset.sum_nonneg fun m _ => mul_self_nonneg (xr m d))).mp hs d (Finset.mem_univ d)
  have h2 := (Finset.sum_eq_zero_iff_of_nonneg
    (fun m _ => mul_self_nonneg (xr m d))).mp h1 m (Finset.mem_univ m)
  exact mul_self_eq_zero.mp h2

theorem out_eq (X : Mat 512 256) (hX : ∀ m d, ∃ r : ℝ, X m d = (r : EReal)) : outK X = outR X := by
  obtain ⟨xr, hxn⟩ := xn_real X hX
  have hK := trK_real X xr hxn
  have hR := trR_real X xr hxn
  have hT0 : 0 ≤ (∑ d : Fin 256, ∑ m : Fin 512, xr m d * xr m d) * (1 / 511) :=
    mul_nonneg (Finset.sum_nonneg fun d _ => Finset.sum_nonneg fun m _ => mul_self_nonneg (xr m d)) (by norm_num)
  funext m e
  show ∑ d : Fin 256, xn X m d * wmK X d e = ∑ d : Fin 256, xn X m d * wmR X d e
  rcases hT0.eq_or_lt with h0 | hpos
  · have hz : ∀ m d, xn X m d = 0 := fun m d => by
      rw [hxn, xr_zero_of_tr_zero xr h0.symm m d, EReal.coe_zero]
    simp only [hz, zero_mul]
  · refine Finset.sum_congr rfl fun d _ => ?_
    show xn X m d * (pK X d e * Ideal.rsqrt (trK X)) = xn X m d * Ideal.div (pR X d e) (Ideal.sqrt (trR X))
    rw [hK, hR, div_sqrt_eq hpos, p_eq X xr hxn]

end Cert.Whiten

end
-- ==== Proof.FiniteInputs.lean ====
/-
  The finiteness precondition, read back: the printed predicate is the conjunction, over every index, of
  |x i| < +∞, and it is stated to be true; so every entry of x is a real number.
-/
import proofs.«116937_j43765716746255_2_alg».proof.Pre_finite_inputs
import Idealize.ShloMosaic.Lib.ReduceAll
import Idealize.ShloMosaic.Lib.ValueIdx
import Idealize.ShloMosaic.PureOps.Ideal

noncomputable section

namespace Cert.Whiten

open Idealize.ShloMosaic

/-- The pattern of +∞ denotes ⊤. -/
theorem ofBits_inf : Ideal.ofBits .f32 0x7F800000#32 = ⊤ := by
  simp [Ideal.ofBits, Ideal.ieee]

/-- The precondition "every |x i| is below +∞" says every entry of x is a real: an infinite entry has |x i| = ⊤. -/
theorem finite_of_pre [Cert.Pre_finite_inputs.Facts] (x : FVec Ideal Cert.Pre_finite_inputs.S256x512x256 .f32)
    (h : Cert.Pre_finite_inputs.fn (F := Ideal) x = fun _ => 1#1) : ∀ i, ∃ r : ℝ, x i = (r : EReal) := by
  intro i
  haveI : Subsingleton Cert.Pre_finite_inputs.S_.Idx := ⟨fun a b => funext fun d => d.elim0⟩
  have h0 := congrFun h ValueIdx.ix0
  dsimp only [Cert.Pre_finite_inputs.fn] at h0
  have hi := Host.reduce_andi_all _ _ _ _ _ h0 i
  change Ideal.cmp .olt (max (x i) (-(x i))) (Ideal.ofBits .f32 0x7F800000#32) = 1#1 at hi
  rw [ofBits_inf] at hi
  generalize x i = y at hi ⊢
  induction y using EReal.rec with
  | bot => simp [Ideal.cmp] at hi
  | top => simp [Ideal.cmp] at hi
  | coe r => exact ⟨r, rfl⟩

end Cert.Whiten

end
-- ==== Proof.lean ====
/-
  Whitening by a trace-normalised Newton–Schulz iteration: the kernel against its reference, over the extended reals.

  For each of the 256 batch entries X (a 512 × 256 matrix) both programs centre the columns (xn), form the covariance
  xnᵀ·xn / 511, divide it by its trace, iterate P ← 1.5·P − 0.5·(P·P·P)·sn from the identity, scale P by the inverse
  square root of the trace and return xn·(that). The kernel works on blocks of four batch entries, takes its matrix
  products through a narrower float format (the identity on the extended reals), computes the trace as the sum of all
  squares of xn over 511 where the reference sums the diagonal of the covariance, starts from the first iterate worked
  out by hand (1.5·I − 0.5·sn) and takes three steps where the reference takes four from I, and multiplies by
  rsqrt(trace) where the reference divides by sqrt(trace).

  On finite inputs these agree entry by entry (WhitenLaw.out_eq): the two traces are one real number t ≥ 0
  (division by 511 distributes over a sum of reals); the identity matrix is neutral for the product of extended-real
  matrices, so the reference's first step is the kernel's starting matrix; for t > 0, p·rsqrt(t) = p / sqrt(t) for every
  extended real p; and for t = 0 every entry of xn is 0, so both results are sums of 0·(anything) = 0, whatever the two
  (different) whitening matrices hold there.

  The modules: Spec (the per-batch mathematics, both spellings), WhitenLaw (the law above), FiniteInputs (the
  precondition gives real entries); KernelDots / KernelLayout / KernelRead (the kernel's body read entry by entry
  against Spec), KernelWhole (the 64 blocks make one whole-array function, and the kernel's run ends there);
  RefOps / RefRun / RefEqs (the reference's 79 host operations as one straight line, its run, and one equation per
  buffer), RefReadTrace / RefRead (the reference's buffers read entry by entry against Spec). The kernel's frames are the
  generated ones; nothing was rewritten by the ideal pass, so the idealization claim is trivial.
-/
import proofs.«116937_j43765716746255_2_alg».proof.Defs
import proofs.«116937_j43765716746255_2_alg».proof.Proof.Gen.Kernel
import proofs.«116937_j43765716746255_2_alg».proof.Proof.Gen.Kernel.Skeleton
import proofs.«116937_j43765716746255_2_alg».proof.Proof.Gen.Kernel.Launch
import proofs.«116937_j43765716746255_2_alg».proof.Proof.Gen.Kernel.Points
import proofs.«116937_j43765716746255_2_alg».proof.Proof.Gen.Kernel.Frame
import proofs.«116937_j43765716746255_2_alg».proof.Proof.Gen.KernelIdeal
import proofs.«116937_j43765716746255_2_alg».proof.Proof.Gen.KernelIdeal.Skeleton
import proofs.«116937_j43765716746255_2_alg».proof.Proof.Gen.KernelIdeal.Launch
import proofs.«116937_j43765716746255_2_alg».proof.Proof.Gen.KernelIdeal.Points
import proofs.«116937_j43765716746255_2_alg».proof.Proof.Gen.KernelIdeal.Frame
import proofs.«116937_j43765716746255_2_alg».proof.Proof.Gen.KernelIdeal.Value
import proofs.«116937_j43765716746255_2_alg».proof.Proof.Gen.ReferenceIdeal
import proofs.«116937_j43765716746255_2_alg».proof.Proof.Gen.Pre_finite_inputs
import proofs.«116937_j43765716746255_2_alg».proof.Proof.KernelWhole
import proofs.«116937_j43765716746255_2_alg».proof.Proof.RefRead
import proofs.«116937_j43765716746255_2_alg».proof.Proof.WhitenLaw
import proofs.«116937_j43765716746255_2_alg».proof.Proof.FiniteInputs
import Idealize.ShloMosaic.Adequacy
import Idealize.ShloMosaic.Init

noncomputable section

namespace Cert.Proof

open Idealize.ShloMosaic Idealize.ShloMosaic.TcCoe Idealize.SL.Sem Idealize.ShloMosaic.StableHlo Idealize.ShloMosaic.ValueIdx
open Cert.ReferenceIdeal.RefRun Cert.Whiten

-- the reference's final contents are a fold over its 79 operations; it is only ever cited, never computed through
attribute [local irreducible] after

/-- The kernel as printed runs and keeps its argument. -/
theorem frame_kernel : Cert.frame_Kernel := fun m ρ _ => Cert.Kernel.Gen.frame m ρ

/-- The idealized kernel runs and keeps its argument. -/
theorem frame_kernelIdeal : Cert.frame_KernelIdeal := fun m ρ _ => Cert.KernelIdeal.Gen.frame m ρ

/-- The reference runs, and its argument, which no operation writes, ends as launched. -/
theorem frame_referenceIdeal : Cert.frame_ReferenceIdeal := fun m ρ _ =>
  (θ_run Cert.ReferenceIdeal.defs _ _).mono (fun _ h c => (h c Cert.ReferenceIdeal.main_arg0).trans (arg0_kept _))
    (run_main (F := Ideal) m ρ)

/-- No operation was rewritten for the ideal reading. -/
theorem preserves : Cert.preserves_Kernel_KernelIdeal := trivial

/-- Both runs end with the same array: at (n, q, e) the kernel's is the kernel-side whitening of batch entry n and the
    reference's the reference-side one, and on the finite entries the precondition gives these are equal. -/
theorem algebraic : Cert.algebraic_KernelIdeal_ReferenceIdeal := by
  intro m ρ m' ρ' hpre hagree
  refine ⟨fun c => Cert.KernelIdeal.Whole.G (m ((c.tc : Thread Cert.KernelIdeal.nD Cert.KernelIdeal.τ).loc Cert.KernelIdeal.main_arg0)),
    Cert.KernelIdeal.Whole.run m ρ, ?_⟩
  refine (θ_run Cert.ReferenceIdeal.defs _ _).mono
    (fun _ h c => ⟨(h c Cert.ReferenceIdeal.main_v55).trans ?_, (h c Cert.ReferenceIdeal.main_arg0).trans (arg0_kept _)⟩)
    (run_main (F := Ideal) m' ρ')
  funext i
  obtain ⟨n, q, e, rfl⟩ : ∃ (n : Fin 256) (q : Fin 512) (e : Fin 256), i = ix3 n q e := ⟨i 0, i 1, i 2, eq_ix3 i⟩
  refine (ref_out _ n q e).trans ?_
  show outR (fun m'' d => m' ((c.tc : Thread Cert.ReferenceIdeal.nD Cert.ReferenceIdeal.τ).loc Cert.ReferenceIdeal.main_arg0) (ix3 n m'' d)) q e
    = outK (fun m'' d => m ((c.tc : Thread Cert.KernelIdeal.nD Cert.KernelIdeal.τ).loc Cert.KernelIdeal.main_arg0) (ix3 n m'' d)) q e
  rw [hagree c]
  exact (congrFun (congrFun (out_eq _ fun a b => finite_of_pre _ (hpre c) _) q) e).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
